-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S1200000 : Shape := ⟨1, ![1200000]⟩
abbrev S100000x64 : Shape := ⟨2, ![100000, 64]⟩
abbrev S50000x64 : Shape := ⟨2, ![50000, 64]⟩
abbrev S_ : Shape := ⟨0, ![]⟩

class Facts : Prop where
  bcast_S_S1200000 : S_.BroadcastsInDim S1200000 (![] : Fin 0 → Fin S1200000.rank)
  reducesTo_S1200000_S_d0 : S1200000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S50000x64 : S_.BroadcastsInDim S50000x64 (![] : Fin 0 → Fin S50000x64.rank)
  reducesTo_S50000x64_S_d0_1 : S50000x64.ReducesTo [0, 1] S_

variable [Facts]

def fn {F : FTy → Type} [FloatOps F] (main_arg0 : IVec S4096 32) (main_arg1 : IVec S4096 32) (main_arg2 : IVec S1200000 32) (main_arg3 : IVec S1200000 32) (main_arg4 : FVec F S1200000 .f32) (main_arg5 : FVec F S100000x64 .f32) (main_arg6 : FVec F S50000x64 .f32) : IVec S_ 1 :=
  let main_v0 : FVec F S1200000 .f32 := Host.absf main_arg4
  let main_cst : FVec F S_ .f32 := constant S_ .f32 0x7F800000#32
  let main_v1 : FVec F S1200000 .f32 := broadcastInDim S1200000 ![] bcast_S_S1200000 main_cst
  let main_v2 : IVec S1200000 1 := cmpf .olt main_v0 main_v1
  let main_c : IVec S_ 1 := constantI S_ 1 1#1
  let main_v3 : IVec S_ 1 := (fun x v => Host.reduce IntOp.andi x v reducesTo_S1200000_S_d0 h_S_) main_v2 main_c
  let main_v4 : FVec F S100000x64 .f32 := Host.absf main_arg5
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S50000x64 .f32 := Host.absf main_arg6
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  main_v13
-- ==== Kernel.lean ====
abbrev S4096 : Shape := ⟨1, ![4096]⟩
abbrev S1200000 : Shape := ⟨1, ![1200000]⟩
abbrev S100000x64 : Shape := ⟨2, ![100000, 64]⟩
abbrev S50000x64 : Shape := ⟨2, ![50000, 64]⟩
abbrev S150000x64 : Shape := ⟨2, ![150000, 64]⟩
abbrev S1200000x1 : Shape := ⟨2, ![1200000, 1]⟩
abbrev S_ : Shape := ⟨0, ![]⟩
abbrev S1200000x64 : Shape := ⟨2, ![1200000, 64]⟩
abbrev S75000x128 : Shape := ⟨2, ![75000, 128]⟩
abbrev S3000x128 : Shape := ⟨2, ![3000, 128]⟩
abbrev S4096x1 : Shape := ⟨2, ![4096, 1]⟩
abbrev S4096x64 : Shape := ⟨2, ![4096, 64]⟩

abbrev nBuf : Space → Nat
  | .hbm => 100
  | .vmem => 30
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S1200000, .i32⟩
  | .hbm, ⟨3, _⟩ => ⟨S1200000, .i32⟩
  | .hbm, ⟨4, _⟩ => ⟨S1200000, .f32⟩
  | .hbm, ⟨5, _⟩ => ⟨S100000x64, .f32⟩
  | .hbm, ⟨6, _⟩ => ⟨S50000x64, .f32⟩
  | .hbm, ⟨7, _⟩ => ⟨S150000x64, .f32⟩
  | .hbm, ⟨8, _⟩ => ⟨S1200000x1, .f32⟩
  | .hbm, ⟨9, _⟩ => ⟨S_, .i32⟩
  | .hbm, ⟨10, _⟩ => ⟨S1200000, .i32⟩
  | .hbm, ⟨11, _⟩ => ⟨S1200000, .i1⟩
  | .hbm, ⟨12, _⟩ => ⟨S_, .i32⟩
  | .hbm, ⟨13, _⟩ => ⟨S1200000, .i32⟩
  | .hbm, ⟨14, _⟩ => ⟨S1200000, .i32⟩
  | .hbm, ⟨15, _⟩ => ⟨S1200000, .i32⟩
  | .hbm, ⟨16, _⟩ => ⟨S1200000x1, .i32⟩
  | .hbm, ⟨17, _⟩ => ⟨S1200000x64, .f32⟩
  | .hbm, ⟨18, _⟩ => ⟨S1200000x64, .f32⟩
  | .hbm, ⟨19, _⟩ => ⟨S1200000x64, .f32⟩
  | .hbm, ⟨20, _⟩ => ⟨S_, .f32⟩
  | .hbm, ⟨21, _⟩ => ⟨S150000x64, .f32⟩
  | .hbm, ⟨22, _⟩ => ⟨S1200000x1, .i32⟩
  | .hbm, ⟨23, _⟩ => ⟨S150000x64, .f32⟩
  | .hbm, ⟨24, _⟩ => ⟨S75000x128, .f32⟩
  | .hbm, ⟨25, _⟩ => ⟨S75000x128, .f32⟩
  | .hbm, ⟨26, _⟩ => ⟨S75000x128, .f32⟩
  | .hbm, ⟨27, _⟩ => ⟨S75000x128, .f32⟩
  | .hbm, ⟨28, _⟩ => ⟨S75000x128, .f32⟩
  | .hbm, ⟨29, _⟩ => ⟨S150000x64, .f32⟩
  | .hbm, ⟨30, _⟩ => ⟨S150000x64, .f32⟩
  | .hbm, ⟨31, _⟩ => ⟨S1200000x1, .f32⟩
  | .hbm, ⟨32, _⟩ => ⟨S_, .i32⟩
  | .hbm, ⟨33, _⟩ => ⟨S1200000, .i32⟩
  | .hbm, ⟨34, _⟩ => ⟨S1200000, .i1⟩
  | .hbm, ⟨35, _⟩ => ⟨S_, .i32⟩
  | .hbm, ⟨36, _⟩ => ⟨S1200000, .i32⟩
  | .hbm, ⟨37, _⟩ => ⟨S1200000, .i32⟩
  | .hbm, ⟨38, _⟩ => ⟨S1200000, .i32⟩
  | .hbm, ⟨39, _⟩ => ⟨S1200000x1, .i32⟩
  | .hbm, ⟨40, _⟩ => ⟨S1200000x64, .f32⟩
  | .hbm, ⟨41, _⟩ => ⟨S1200000x64, .f32⟩
  | .hbm, ⟨42, _⟩ => ⟨S1200000x64, .f32⟩
  | .hbm, ⟨43, _⟩ => ⟨S_, .f32⟩
  | .hbm, ⟨44, _⟩ => ⟨S150000x64, .f32⟩
  | .hbm, ⟨45, _⟩ => ⟨S1200000x1, .i32⟩
  | .hbm, ⟨46, _⟩ => ⟨S150000x64, .f32⟩
  | .hbm, ⟨47, _⟩ => ⟨S75000x128, .f32⟩
  | .hbm, ⟨48, _⟩ => ⟨S75000x128, .f32⟩
  | .hbm, ⟨49, _⟩ => ⟨S75000x128, .f32⟩
  | .hbm, ⟨50, _⟩ => ⟨S75000x128, .f32⟩
  | .hbm, ⟨51, _⟩ => ⟨S75000x128, .f32⟩
  | .hbm, ⟨52, _⟩ => ⟨S150000x64, .f32⟩
  | .hbm, ⟨53, _⟩ => ⟨S150000x64, .f32⟩
  | .hbm, ⟨54, _⟩ => ⟨S1200000x1, .f32⟩
  | .hbm, ⟨55, _⟩ => ⟨S_, .i32⟩
  | .hbm, ⟨56, _⟩ => ⟨S1200000, .i32⟩
  | .hbm, ⟨57, _⟩ => ⟨S1200000, .i1⟩
  | .hbm, ⟨58, _⟩ => ⟨S_, .i32⟩
  | .hbm, ⟨59, _⟩ => ⟨S1200000, .i32⟩
  | .hbm, ⟨60, _⟩ => ⟨S1200000, .i32⟩
  | .hbm, ⟨61, _⟩ => ⟨S1200000, .i32⟩
  | .hbm, ⟨62, _⟩ => ⟨S1200000x1, .i32⟩
  | .hbm, ⟨63, _⟩ => ⟨S1200000x64, .f32⟩
  | .hbm, ⟨64, _⟩ => ⟨S1200000x64, .f32⟩
  | .hbm, ⟨65, _⟩ => ⟨S1200000x64, .f32⟩
  | .hbm, ⟨66, _⟩ => ⟨S_, .f32⟩
  | .hbm, ⟨67, _⟩ => ⟨S150000x64, .f32⟩
  | .hbm, ⟨68, _⟩ => ⟨S1200000x1, .i32⟩
  | .hbm, ⟨69, _⟩ => ⟨S150000x64, .f32⟩
  | .hbm, ⟨70, _⟩ => ⟨S75000x128, .f32⟩
  | .hbm, ⟨71, _⟩ => ⟨S75000x128, .f32⟩
  | .hbm, ⟨72, _⟩ => ⟨S75000x128, .f32⟩
  | .hbm, ⟨73, _⟩ => ⟨S75000x128, .f32⟩
  | .hbm, ⟨74, _⟩ => ⟨S75000x128, .f32⟩
  | .hbm, ⟨75, _⟩ => ⟨S150000x64, .f32⟩
  | .hbm, ⟨76, _⟩ => ⟨S150000x64, .f32⟩
  | .hbm, ⟨77, _⟩ => ⟨S100000x64, .f32⟩
  | .hbm, ⟨78, _⟩ => ⟨S50000x64, .f32⟩
  | .hbm, ⟨79, _⟩ => ⟨S_, .i32⟩
  | .hbm, ⟨80, _⟩ => ⟨S4096, .i32⟩
  | .hbm, ⟨81, _⟩ => ⟨S4096, .i1⟩
  | .hbm, ⟨82, _⟩ => ⟨S_, .i32⟩
  | .hbm, ⟨83, _⟩ => ⟨S4096, .i32⟩
  | .hbm, ⟨84, _⟩ => ⟨S4096, .i32⟩
  | .hbm, ⟨85, _⟩ => ⟨S4096, .i32⟩
  | .hbm, ⟨86, _⟩ => ⟨S4096x1, .i32⟩
  | .hbm, ⟨87, _⟩ => ⟨S4096x64, .f32⟩
  | .hbm, ⟨88, _⟩ => ⟨S_, .i32⟩
  | .hbm, ⟨89, _⟩ => ⟨S4096, .i32⟩
  | .hbm, ⟨90, _⟩ => ⟨S4096, .i1⟩
  | .hbm, ⟨91, _⟩ => ⟨S_, .i32⟩
  | .hbm, ⟨92, _⟩ => ⟨S4096, .i32⟩
  | .hbm, ⟨93, _⟩ => ⟨S4096, .i32⟩
  | .hbm, ⟨94, _⟩ => ⟨S4096, .i32⟩
  | .hbm, ⟨95, _⟩ => ⟨S4096x1, .i32⟩
  | .hbm, ⟨96, _⟩ => ⟨S4096x64, .f32⟩
  | .hbm, ⟨97, _⟩ => ⟨S4096x64, .f32⟩
  | .hbm, ⟨98, _⟩ => ⟨S_, .f32⟩
  | .hbm, ⟨99, _⟩ => ⟨S4096, .f32⟩
  | .local _ .vmem, ⟨0, _⟩ => ⟨S3000x128, .f32⟩
  | .local _ .vmem, ⟨1, _⟩ => ⟨S3000x128, .f32⟩
  | .local _ .vmem, ⟨2, _⟩ => ⟨S3000x128, .f32⟩
  | .local _ .vmem, ⟨3, _⟩ => ⟨S3000x128, .f32⟩
  | .local _ .vmem, ⟨4, _⟩ => ⟨S3000x128, .f32⟩
  | .local _ .vmem, ⟨5, _⟩ => ⟨S3000x128, .f32⟩
  | .local _ .vmem, ⟨6, _⟩ => ⟨S3000x128, .f32⟩
  | .local _ .vmem, ⟨7, _⟩ => ⟨S3000x128, .f32⟩
  | .local _ .vmem, ⟨8, _⟩ => ⟨S3000x128, .f32⟩
  | .local _ .vmem, ⟨9, _⟩ => ⟨S3000x128, .f32⟩
  | .local _ .vmem, ⟨10, _⟩ => ⟨S3000x128, .f32⟩
  | .local _ .vmem, ⟨11, _⟩ => ⟨S3000x128, .f32⟩
  | .local _ .vmem, ⟨12, _⟩ => ⟨S3000x128, .f32⟩
  | .local _ .vmem, ⟨13, _⟩ => ⟨S3000x128, .f32⟩
  | .local _ .vmem, ⟨14, _⟩ => ⟨S3000x128, .f32⟩
  | .local _ .vmem, ⟨15, _⟩ => ⟨S3000x128, .f32⟩
  | .local _ .vmem, ⟨16, _⟩ => ⟨S3000x128, .f32⟩
  | .local _ .vmem, ⟨17, _⟩ => ⟨S3000x128, .f32⟩
  | .local _ .vmem, ⟨18, _⟩ => ⟨S3000x128, .f32⟩
  | .local _ .vmem, ⟨19, _⟩ => ⟨S3000x128, .f32⟩
  | .local _ .vmem, ⟨20, _⟩ => ⟨S3000x128, .f32⟩
  | .local _ .vmem, ⟨21, _⟩ => ⟨S3000x128, .f32⟩
  | .local _ .vmem, ⟨22, _⟩ => ⟨S3000x128, .f32⟩
  | .local _ .vmem, ⟨23, _⟩ => ⟨S3000x128, .f32⟩
  | .local _ .vmem, ⟨24, _⟩ => ⟨S3000x128, .f32⟩
  | .local _ .vmem, ⟨25, _⟩ => ⟨S3000x128, .f32⟩
  | .local _ .vmem, ⟨26, _⟩ => ⟨S3000x128, .f32⟩
  | .local _ .vmem, ⟨27, _⟩ => ⟨S3000x128, .f32⟩
  | .local _ .vmem, ⟨28, _⟩ => ⟨S3000x128, .f32⟩
  | .local _ .vmem, ⟨29, _⟩ => ⟨S3000x128, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_1 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36_0 : Ref sig .tc := ⟨.hbm, 50, rfl⟩
abbrev main_v36_1 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_4 : Ref sig .tc := ⟨.hbm, 55, rfl⟩
abbrev main_v40 : Ref sig .tc := ⟨.hbm, 56, rfl⟩
abbrev main_v41 : Ref sig .tc := ⟨.hbm, 57, rfl⟩
abbrev main_c_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_6 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55_0 : Ref sig .tc := ⟨.hbm, 73, rfl⟩
abbrev main_v55_1 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_c_7 : Ref sig .tc := ⟨.hbm, 79, rfl⟩
abbrev main_v60 : Ref sig .tc := ⟨.hbm, 80, rfl⟩
abbrev main_v61 : Ref sig .tc := ⟨.hbm, 81, rfl⟩
abbrev main_c_8 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_c_9 : Ref sig .tc := ⟨.hbm, 88, rfl⟩
abbrev main_v67 : Ref sig .tc := ⟨.hbm, 89, rfl⟩
abbrev main_v68 : Ref sig .tc := ⟨.hbm, 90, rfl⟩
abbrev main_c_10 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_11 : Ref sig .tc := ⟨.hbm, 98, rfl⟩
abbrev main_v75 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S3000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S3000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S3000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S3000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  concatenates_S100000x64_S50000x64_S150000x64_d0 : Shape.Concatenates [S100000x64, S50000x64] S150000x64 0
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  bcast_S_S150000x64 : S_.BroadcastsInDim S150000x64 (![] : Fin 0 → Fin S150000x64.rank)
  shapeCasts_S150000x64_S75000x128 : S150000x64.ShapeCasts S75000x128
  inb_S3000x128_S3000x128_0_0 : ∀ a, (![0, 0] : Fin 2 → Nat) a + S3000x128.size a ≤ S3000x128.size a
  h_S3000x128 : 0 < S3000x128.numel
  shapeCasts_S3000x128_S3000x128 : S3000x128.ShapeCasts S3000x128
  shapeCasts_S75000x128_S150000x64 : S75000x128.ShapeCasts S150000x64
  slices_S150000x64_S100000x64_0_0 : S150000x64.Slices ![0, 0] S100000x64
  slices_S150000x64_S50000x64_100000_0 : S150000x64.Slices ![100000, 0] S50000x64
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  h_S_ : 0 < S_.numel
  gather_S150000x64_S1200000x1_S1200000x64_1_0_n_n_0_1_164_wf : GatherDims.WF S150000x64 S1200000x1 S1200000x64 [1] [0] [] [0] [] 1 ![1, 64]
  scatter_S150000x64_S1200000x1_S1200000x64_1_0_0_1_wf : ScatterDims.WF S150000x64 S1200000x1 S1200000x64 [1] [0] [0] 1
  gather_S100000x64_S4096x1_S4096x64_1_0_n_n_0_1_164_wf : GatherDims.WF S100000x64 S4096x1 S4096x64 [1] [0] [] [0] [] 1 ![1, 64]
  gather_S50000x64_S4096x1_S4096x64_1_0_n_n_0_1_164_wf : GatherDims.WF S50000x64 S4096x1 S4096x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x128.size a ≤ S75000x128.size a
  hwx0_0 : ∀ i : grid0.Coords, EltTy.bits .f32 = 32 ∨ (Rect.block (s := S75000x128) S3000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x128.size a ≤ S75000x128.size a
  hwx0_1 : ∀ i : grid0.Coords, EltTy.bits .f32 = 32 ∨ (Rect.block (s := S75000x128) S3000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x128.size a ≤ S75000x128.size a
  hwx0_2 : ∀ i : grid0.Coords, EltTy.bits .f32 = 32 ∨ (Rect.block (s := S75000x128) S3000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3000x128.size a ≤ S75000x128.size a
  hwx0_3 : ∀ i : grid0.Coords, EltTy.bits .f32 = 32 ∨ (Rect.block (s := S75000x128) S3000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3000x128.size a ≤ S75000x128.size a
  hwx0_4 : ∀ i : grid0.Coords, EltTy.bits .f32 = 32 ∨ (Rect.block (s := S75000x128) S3000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x128.size a ≤ S75000x128.size a
  hwx1_0 : ∀ i : grid1.Coords, EltTy.bits .f32 = 32 ∨ (Rect.block (s := S75000x128) S3000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3000x128.size a ≤ S75000x128.size a
  hwx1_1 : ∀ i : grid1.Coords, EltTy.bits .f32 = 32 ∨ (Rect.block (s := S75000x128) S3000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3000x128.size a ≤ S75000x128.size a
  hwx1_2 : ∀ i : grid1.Coords, EltTy.bits .f32 = 32 ∨ (Rect.block (s := S75000x128) S3000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3000x128.size a ≤ S75000x128.size a
  hwx1_3 : ∀ i : grid1.Coords, EltTy.bits .f32 = 32 ∨ (Rect.block (s := S75000x128) S3000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S3000x128.size a ≤ S75000x128.size a
  hwx1_4 : ∀ i : grid1.Coords, EltTy.bits .f32 = 32 ∨ (Rect.block (s := S75000x128) S3000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x128.size a ≤ S75000x128.size a
  hwx2_0 : ∀ i : grid2.Coords, EltTy.bits .f32 = 32 ∨ (Rect.block (s := S75000x128) S3000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3000x128.size a ≤ S75000x128.size a
  hwx2_1 : ∀ i : grid2.Coords, EltTy.bits .f32 = 32 ∨ (Rect.block (s := S75000x128) S3000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3000x128.size a ≤ S75000x128.size a
  hwx2_2 : ∀ i : grid2.Coords, EltTy.bits .f32 = 32 ∨ (Rect.block (s := S75000x128) S3000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S3000x128.size a ≤ S75000x128.size a
  hwx2_3 : ∀ i : grid2.Coords, EltTy.bits .f32 = 32 ∨ (Rect.block (s := S75000x128) S3000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S3000x128.size a ≤ S75000x128.size a
  hwx2_4 : ∀ i : grid2.Coords, EltTy.bits .f32 = 32 ∨ (Rect.block (s := S75000x128) S3000x128.size (cc2_transform_4 i) (hinb2_4 i)).WholeWords (EltTy.packing .f32)

variable [Facts₀]

def gather_S150000x64_S1200000x1_S1200000x64_1_0_n_n_0_1_164 : GatherDims S150000x64 S1200000x1 S1200000x64 where
  offsetDims := [1]
  collapsedSliceDims := [0]
  operandBatchingDims := []
  startIndicesBatchingDims := []
  startIndexMap := [0]
  indexVectorDim := 1
  sliceSizes := ![1, 64]
  wf := gather_S150000x64_S1200000x1_S1200000x64_1_0_n_n_0_1_164_wf
def scatter_S150000x64_S1200000x1_S1200000x64_1_0_0_1 : ScatterDims S150000x64 S1200000x1 S1200000x64 where
  updateWindowDims := [1]
  insertedWindowDims := [0]
  scatterDimsToOperandDims := [0]
  indexVectorDim := 1
  wf := scatter_S150000x64_S1200000x1_S1200000x64_1_0_0_1_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf

abbrev win0_0 : Pipeline.Window sig grid0 :=
  Pipeline.Window.ofSpec (Memref.whole main_v14) S3000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S3000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S3000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17_0) S3000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17_1) S3000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v33) S3000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S3000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S3000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36_0) S3000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v36_1) S3000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v52) S3000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S3000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S3000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v55_0) S3000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v55_1) S3000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where
  halias0_3 : Pipeline.Aliased win0 0 3
  halias0_4 : Pipeline.Aliased win0 2 4
  halias1_3 : Pipeline.Aliased win1 0 3
  halias1_4 : Pipeline.Aliased win1 2 4
  halias2_3 : Pipeline.Aliased win2 0 3
  halias2_4 : Pipeline.Aliased win2 2 4

variable [Facts]
-- ==== ReferenceIdeal.lean ====
abbrev S4096 : Shape := ⟨1, ![4096]⟩
abbrev S1200000 : Shape := ⟨1, ![1200000]⟩
abbrev S100000x64 : Shape := ⟨2, ![100000, 64]⟩
abbrev S50000x64 : Shape := ⟨2, ![50000, 64]⟩
abbrev S150000x64 : Shape := ⟨2, ![150000, 64]⟩
abbrev S_ : Shape := ⟨0, ![]⟩
abbrev S1200000x1 : Shape := ⟨2, ![1200000, 1]⟩
abbrev S1200000x64 : Shape := ⟨2, ![1200000, 64]⟩
abbrev S4096x1 : Shape := ⟨2, ![4096, 1]⟩
abbrev S4096x64 : Shape := ⟨2, ![4096, 64]⟩

abbrev nBuf : Space → Nat
  | .hbm => 106
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S1200000, .i32⟩
  | .hbm, ⟨3, _⟩ => ⟨S1200000, .i32⟩
  | .hbm, ⟨4, _⟩ => ⟨S1200000, .f32⟩
  | .hbm, ⟨5, _⟩ => ⟨S100000x64, .f32⟩
  | .hbm, ⟨6, _⟩ => ⟨S50000x64, .f32⟩
  | .hbm, ⟨7, _⟩ => ⟨S150000x64, .f32⟩
  | .hbm, ⟨8, _⟩ => ⟨S_, .f32⟩
  | .hbm, ⟨9, _⟩ => ⟨S150000x64, .f32⟩
  | .hbm, ⟨10, _⟩ => ⟨S150000x64, .f32⟩
  | .hbm, ⟨11, _⟩ => ⟨S1200000x1, .f32⟩
  | .hbm, ⟨12, _⟩ => ⟨S_, .i32⟩
  | .hbm, ⟨13, _⟩ => ⟨S1200000, .i32⟩
  | .hbm, ⟨14, _⟩ => ⟨S1200000, .i1⟩
  | .hbm, ⟨15, _⟩ => ⟨S_, .i32⟩
  | .hbm, ⟨16, _⟩ => ⟨S1200000, .i32⟩
  | .hbm, ⟨17, _⟩ => ⟨S1200000, .i32⟩
  | .hbm, ⟨18, _⟩ => ⟨S1200000, .i32⟩
  | .hbm, ⟨19, _⟩ => ⟨S1200000x1, .i32⟩
  | .hbm, ⟨20, _⟩ => ⟨S1200000x64, .f32⟩
  | .hbm, ⟨21, _⟩ => ⟨S1200000x64, .f32⟩
  | .hbm, ⟨22, _⟩ => ⟨S1200000x64, .f32⟩
  | .hbm, ⟨23, _⟩ => ⟨S_, .f32⟩
  | .hbm, ⟨24, _⟩ => ⟨S150000x64, .f32⟩
  | .hbm, ⟨25, _⟩ => ⟨S1200000x1, .i32⟩
  | .hbm, ⟨26, _⟩ => ⟨S150000x64, .f32⟩
  | .hbm, ⟨27, _⟩ => ⟨S_, .f32⟩
  | .hbm, ⟨28, _⟩ => ⟨S150000x64, .f32⟩
  | .hbm, ⟨29, _⟩ => ⟨S150000x64, .f32⟩
  | .hbm, ⟨30, _⟩ => ⟨S150000x64, .f32⟩
  | .hbm, ⟨31, _⟩ => ⟨S150000x64, .f32⟩
  | .hbm, ⟨32, _⟩ => ⟨S_, .f32⟩
  | .hbm, ⟨33, _⟩ => ⟨S150000x64, .f32⟩
  | .hbm, ⟨34, _⟩ => ⟨S150000x64, .f32⟩
  | .hbm, ⟨35, _⟩ => ⟨S1200000x1, .f32⟩
  | .hbm, ⟨36, _⟩ => ⟨S_, .i32⟩
  | .hbm, ⟨37, _⟩ => ⟨S1200000, .i32⟩
  | .hbm, ⟨38, _⟩ => ⟨S1200000, .i1⟩
  | .hbm, ⟨39, _⟩ => ⟨S_, .i32⟩
  | .hbm, ⟨40, _⟩ => ⟨S1200000, .i32⟩
  | .hbm, ⟨41, _⟩ => ⟨S1200000, .i32⟩
  | .hbm, ⟨42, _⟩ => ⟨S1200000, .i32⟩
  | .hbm, ⟨43, _⟩ => ⟨S1200000x1, .i32⟩
  | .hbm, ⟨44, _⟩ => ⟨S1200000x64, .f32⟩
  | .hbm, ⟨45, _⟩ => ⟨S1200000x64, .f32⟩
  | .hbm, ⟨46, _⟩ => ⟨S1200000x64, .f32⟩
  | .hbm, ⟨47, _⟩ => ⟨S_, .f32⟩
  | .hbm, ⟨48, _⟩ => ⟨S150000x64, .f32⟩
  | .hbm, ⟨49, _⟩ => ⟨S1200000x1, .i32⟩
  | .hbm, ⟨50, _⟩ => ⟨S150000x64, .f32⟩
  | .hbm, ⟨51, _⟩ => ⟨S_, .f32⟩
  | .hbm, ⟨52, _⟩ => ⟨S150000x64, .f32⟩
  | .hbm, ⟨53, _⟩ => ⟨S150000x64, .f32⟩
  | .hbm, ⟨54, _⟩ => ⟨S150000x64, .f32⟩
  | .hbm, ⟨55, _⟩ => ⟨S150000x64, .f32⟩
  | .hbm, ⟨56, _⟩ => ⟨S_, .f32⟩
  | .hbm, ⟨57, _⟩ => ⟨S150000x64, .f32⟩
  | .hbm, ⟨58, _⟩ => ⟨S150000x64, .f32⟩
  | .hbm, ⟨59, _⟩ => ⟨S1200000x1, .f32⟩
  | .hbm, ⟨60, _⟩ => ⟨S_, .i32⟩
  | .hbm, ⟨61, _⟩ => ⟨S1200000, .i32⟩
  | .hbm, ⟨62, _⟩ => ⟨S1200000, .i1⟩
  | .hbm, ⟨63, _⟩ => ⟨S_, .i32⟩
  | .hbm, ⟨64, _⟩ => ⟨S1200000, .i32⟩
  | .hbm, ⟨65, _⟩ => ⟨S1200000, .i32⟩
  | .hbm, ⟨66, _⟩ => ⟨S1200000, .i32⟩
  | .hbm, ⟨67, _⟩ => ⟨S1200000x1, .i32⟩
  | .hbm, ⟨68, _⟩ => ⟨S1200000x64, .f32⟩
  | .hbm, ⟨69, _⟩ => ⟨S1200000x64, .f32⟩
  | .hbm, ⟨70, _⟩ => ⟨S1200000x64, .f32⟩
  | .hbm, ⟨71, _⟩ => ⟨S_, .f32⟩
  | .hbm, ⟨72, _⟩ => ⟨S150000x64, .f32⟩
  | .hbm, ⟨73, _⟩ => ⟨S1200000x1, .i32⟩
  | .hbm, ⟨74, _⟩ => ⟨S150000x64, .f32⟩
  | .hbm, ⟨75, _⟩ => ⟨S_, .f32⟩
  | .hbm, ⟨76, _⟩ => ⟨S150000x64, .f32⟩
  | .hbm, ⟨77, _⟩ => ⟨S150000x64, .f32⟩
  | .hbm, ⟨78, _⟩ => ⟨S150000x64, .f32⟩
  | .hbm, ⟨79, _⟩ => ⟨S150000x64, .f32⟩
  | .hbm, ⟨80, _⟩ => ⟨S_, .f32⟩
  | .hbm, ⟨81, _⟩ => ⟨S150000x64, .f32⟩
  | .hbm, ⟨82, _⟩ => ⟨S150000x64, .f32⟩
  | .hbm, ⟨83, _⟩ => ⟨S100000x64, .f32⟩
  | .hbm, ⟨84, _⟩ => ⟨S50000x64, .f32⟩
  | .hbm, ⟨85, _⟩ => ⟨S_, .i32⟩
  | .hbm, ⟨86, _⟩ => ⟨S4096, .i32⟩
  | .hbm, ⟨87, _⟩ => ⟨S4096, .i1⟩
  | .hbm, ⟨88, _⟩ => ⟨S_, .i32⟩
  | .hbm, ⟨89, _⟩ => ⟨S4096, .i32⟩
  | .hbm, ⟨90, _⟩ => ⟨S4096, .i32⟩
  | .hbm, ⟨91, _⟩ => ⟨S4096, .i32⟩
  | .hbm, ⟨92, _⟩ => ⟨S4096x1, .i32⟩
  | .hbm, ⟨93, _⟩ => ⟨S4096x64, .f32⟩
  | .hbm, ⟨94, _⟩ => ⟨S_, .i32⟩
  | .hbm, ⟨95, _⟩ => ⟨S4096, .i32⟩
  | .hbm, ⟨96, _⟩ => ⟨S4096, .i1⟩
  | .hbm, ⟨97, _⟩ => ⟨S_, .i32⟩
  | .hbm, ⟨98, _⟩ => ⟨S4096, .i32⟩
  | .hbm, ⟨99, _⟩ => ⟨S4096, .i32⟩
  | .hbm, ⟨100, _⟩ => ⟨S4096, .i32⟩
  | .hbm, ⟨101, _⟩ => ⟨S4096x1, .i32⟩
  | .hbm, ⟨102, _⟩ => ⟨S4096x64, .f32⟩
  | .hbm, ⟨103, _⟩ => ⟨S4096x64, .f32⟩
  | .hbm, ⟨104, _⟩ => ⟨S_, .f32⟩
  | .hbm, ⟨105, _⟩ => ⟨S4096, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_9 : Ref sig .tc := ⟨.hbm, 60, rfl⟩
abbrev main_v42 : Ref sig .tc := ⟨.hbm, 61, rfl⟩
abbrev main_v43 : Ref sig .tc := ⟨.hbm, 62, rfl⟩
abbrev main_c_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_12 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_13 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_14 : Ref sig .tc := ⟨.hbm, 85, rfl⟩
abbrev main_v62 : Ref sig .tc := ⟨.hbm, 86, rfl⟩
abbrev main_v63 : Ref sig .tc := ⟨.hbm, 87, rfl⟩
abbrev main_c_15 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_16 : Ref sig .tc := ⟨.hbm, 94, rfl⟩
abbrev main_v69 : Ref sig .tc := ⟨.hbm, 95, rfl⟩
abbrev main_v70 : Ref sig .tc := ⟨.hbm, 96, rfl⟩
abbrev main_c_17 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_18 : Ref sig .tc := ⟨.hbm, 104, rfl⟩
abbrev main_v77 : Ref sig .tc := ⟨.hbm, 105, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S_S150000x64 : S_.BroadcastsInDim S150000x64 (![] : Fin 0 → Fin S150000x64.rank)
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  slices_S150000x64_S100000x64_0_0 : S150000x64.Slices ![0, 0] S100000x64
  slices_S150000x64_S50000x64_100000_0 : S150000x64.Slices ![100000, 0] S50000x64
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  h_S_ : 0 < S_.numel
  gather_S150000x64_S1200000x1_S1200000x64_1_0_n_n_0_1_164_wf : GatherDims.WF S150000x64 S1200000x1 S1200000x64 [1] [0] [] [0] [] 1 ![1, 64]
  scatter_S150000x64_S1200000x1_S1200000x64_1_0_0_1_wf : ScatterDims.WF S150000x64 S1200000x1 S1200000x64 [1] [0] [0] 1
  gather_S100000x64_S4096x1_S4096x64_1_0_n_n_0_1_164_wf : GatherDims.WF S100000x64 S4096x1 S4096x64 [1] [0] [] [0] [] 1 ![1, 64]
  gather_S50000x64_S4096x1_S4096x64_1_0_n_n_0_1_164_wf : GatherDims.WF S50000x64 S4096x1 S4096x64 [1] [0] [] [0] [] 1 ![1, 64]

variable [Facts₀]

def gather_S150000x64_S1200000x1_S1200000x64_1_0_n_n_0_1_164 : GatherDims S150000x64 S1200000x1 S1200000x64 where
  offsetDims := [1]
  collapsedSliceDims := [0]
  operandBatchingDims := []
  startIndicesBatchingDims := []
  startIndexMap := [0]
  indexVectorDim := 1
  sliceSizes := ![1, 64]
  wf := gather_S150000x64_S1200000x1_S1200000x64_1_0_n_n_0_1_164_wf
def scatter_S150000x64_S1200000x1_S1200000x64_1_0_0_1 : ScatterDims S150000x64 S1200000x1 S1200000x64 where
  updateWindowDims := [1]
  insertedWindowDims := [0]
  scatterDimsToOperandDims := [0]
  indexVectorDim := 1
  wf := scatter_S150000x64_S1200000x1_S1200000x64_1_0_0_1_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf

class Facts : Prop extends Facts₀ where

variable [Facts]
-- ==== Proof.Spec.lean ====
/-
  The propagation, as mathematics. T is the 150000 x 64 table of user rows over item rows. One layer sends the
  table E to
      E' = 0.2 * E + 0.8 * (G E),
  G E the messages: row n of G E is the sum over the edges e with edge_row e = n of edge_val e * E[edge_col e]
  (a gather, a product and a scatter-add, the same host operations in both programs: they are carried here as ONE
  function `spread` and never opened). Three layers give E1, E2, E3; the result scores the mean (T + E1 + E2 + E3) / 4,
  row users[b] of its first 100000 rows against row items[b] of its last 50000 (`score`, also shared and never opened).

  The kernel runs each layer on the table re-laid as 75000 x 128 (two rows side by side), which changes nothing because
  the layer's arithmetic is pointwise and the two re-layings are inverse; and it keeps the running total a, sending it
  to (a + E') * k with k = 1, 1, 1/4 where the reference adds up first and divides by 4 at the end. On the extended
  reals x * 1 = x and x / 4 = x * (1/4) with no finiteness needed, so the two results are one function of the arguments.
-/
import proofs.«136068_j13134009991424_2_alg».proof.Proof.Gen.KernelIdeal
import Idealize.ShloMosaic.Lib.Pipeline.Value
import Idealize.ShloMosaic.PureOps.Ideal

noncomputable section

namespace Cert.KernelIdeal.Spec

open Cert.KernelIdeal Idealize.ShloMosaic
open Cert.KernelIdeal.Facts₀ Cert.KernelIdeal.Facts

variable {F : FTy → Type} [FloatOps F]

/-! ## The layer's arithmetic, on arrays of any shape -/

/-- The propagation step: 0.2 * x + 0.8 * s, pointwise. -/
def step {sh : Shape} (x s : FVec F sh .f32) : FVec F sh .f32 :=
  addf (mulf (broadcast sh (Scalar.ofBits .f32 0x3E4CCCCD#32)) x) (mulf (broadcast sh (Scalar.ofBits .f32 0x3F4CCCCD#32)) s)

/-- The running total after a step, scaled by the float with word `k`: (a + step x s) * k, pointwise. -/
def total {sh : Shape} (k : BitVec 32) (x s a : FVec F sh .f32) : FVec F sh .f32 :=
  mulf (addf a (step x s)) (broadcast sh (Scalar.ofBits .f32 k))

/-! ## The two layouts of the table -/

/-- 150000 x 64 re-laid as 75000 x 128: the same elements in row-major order. -/
abbrev wide (x : FVec F S150000x64 .f32) : FVec F S75000x128 .f32 := shapeCast S75000x128 x shapeCasts_S150000x64_S75000x128
/-- and back. -/
abbrev tall (x : FVec F S75000x128 .f32) : FVec F S150000x64 .f32 := shapeCast S150000x64 x shapeCasts_S75000x128_S150000x64

theorem tall_wide (x : FVec F S150000x64 .f32) : tall (wide x) = x := shapeCast_shapeCast x _ _
theorem wide_tall (x : FVec F S75000x128 .f32) : wide (tall x) = x := shapeCast_shapeCast x _ _

/-- Pointwise arithmetic does not see the layout. -/
theorem step_wide (x s : FVec F S150000x64 .f32) : step (wide x) (wide s) = wide (step x s) := rfl
theorem total_wide (k : BitVec 32) (x s a : FVec F S150000x64 .f32) : total k (wide x) (wide s) (wide a) = wide (total k x s a) := rfl

/-! ## The host pieces both programs share -/

/-- The table: user rows over item rows. -/
def table (u : FVec F S100000x64 .f32) (it : FVec F S50000x64 .f32) : FVec F S150000x64 .f32 :=
  concatenate S150000x64 0 [⟨S100000x64, u⟩, ⟨S50000x64, it⟩] concatenates_S100000x64_S50000x64_S150000x64_d0

/-- The messages G x: gather rows of x at edge_col (a negative index counted from the end), scale by edge_val, add up at edge_row. -/
def spread (er ec : IVec S1200000 32) (ev : FVec F S1200000 .f32) (x : FVec F S150000x64 .f32) : FVec F S150000x64 .f32 :=
  Host.scatterAdd scatter_S150000x64_S1200000x1_S1200000x64_1_0_0_1
    (broadcastInDim S150000x64 ![] bcast_S_S150000x64 (constant S_ .f32 0x00000000#32))
    (broadcastInDim S1200000x1 ![0] bcast_S1200000_S1200000x1_0 er)
    (mulf
      (broadcastInDim S1200000x64 ![0, 1] bcast_S1200000x1_S1200000x64_0_1
        (broadcastInDim S1200000x1 ![0] bcast_S1200000_S1200000x1_0 ev))
      (Host.gather gather_S150000x64_S1200000x1_S1200000x64_1_0_n_n_0_1_164 x
        (broadcastInDim S1200000x1 ![0] bcast_S1200000_S1200000x1_0
          (select
            (cmpi .slt ec (broadcastInDim S1200000 ![] bcast_S_S1200000 (constantI S_ 32 0#32)))
            (addi ec (broadcastInDim S1200000 ![] bcast_S_S1200000 (constantI S_ 32 150000#32)))
            ec))))

/-- The scores: for each b, the inner product of row users[b] of the first 100000 rows of L with row items[b] of its last 50000. -/
def score (us its : IVec S4096 32) (L : FVec F S150000x64 .f32) : FVec F S4096 .f32 :=
  Host.reduceAdd
    (mulf
      (Host.gather gather_S100000x64_S4096x1_S4096x64_1_0_n_n_0_1_164
        (extractStridedSlice S100000x64 ![0, 0] L slices_S150000x64_S100000x64_0_0)
        (broadcastInDim S4096x1 ![0] bcast_S4096_S4096x1_0
          (select
            (cmpi .slt us (broadcastInDim S4096 ![] bcast_S_S4096 (constantI S_ 32 0#32)))
            (addi us (broadcastInDim S4096 ![] bcast_S_S4096 (constantI S_ 32 100000#32)))
            us)))
      (Host.gather gather_S50000x64_S4096x1_S4096x64_1_0_n_n_0_1_164
        (extractStridedSlice S50000x64 ![100000, 0] L slices_S150000x64_S50000x64_100000_0)
        (broadcastInDim S4096x1 ![0] bcast_S4096_S4096x1_0
          (select
            (cmpi .slt its (broadcastInDim S4096 ![] bcast_S_S4096 (constantI S_ 32 0#32)))
            (addi its (broadcastInDim S4096 ![] bcast_S_S4096 (constantI S_ 32 50000#32)))
            its))))
    (constant S_ .f32 0x00000000#32) reducesTo_S4096x64_S4096_d1 h_S_

/-! ## The kernel's result -/

/-- One launch as the kernel runs it, read back at 150000 x 64: the next table. -/
def launchE (er ec : IVec S1200000 32) (ev : FVec F S1200000 .f32) (E : FVec F S150000x64 .f32) : FVec F S150000x64 .f32 :=
  tall (step (wide E) (wide (spread er ec ev E)))
/-- One launch as the kernel runs it, read back at 150000 x 64: the next running total. -/
def launchA (k : BitVec 32) (er ec : IVec S1200000 32) (ev : FVec F S1200000 .f32) (E A : FVec F S150000x64 .f32) : FVec F S150000x64 .f32 :=
  tall (total k (wide E) (wide (spread er ec ev E)) (wide A))

/-- The re-laying in and out of a launch cancels. -/
theorem launchE_eq (er ec : IVec S1200000 32) (ev : FVec F S1200000 .f32) (E : FVec F S150000x64 .f32) :
    launchE er ec ev E = step E (spread er ec ev E) := by
  unfold launchE; rw [step_wide, tall_wide]
theorem launchA_eq (k : BitVec 32) (er ec : IVec S1200000 32) (ev : FVec F S1200000 .f32) (E A : FVec F S150000x64 .f32) :
    launchA k er ec ev E A = total k E (spread er ec ev E) A := by
  unfold launchA; rw [total_wide, tall_wide]

/-- What the kernel's program returns, as a function of its seven arguments: three launches, then the scores. -/
def kernelOut (us its : IVec S4096 32) (er ec : IVec S1200000 32) (ev : FVec F S1200000 .f32)
    (u : FVec F S100000x64 .f32) (it : FVec F S50000x64 .f32) : FVec F S4096 .f32 :=
  score us its
    (launchA 0x3E800000#32 er ec ev
      (launchE er ec ev (launchE er ec ev (table u it)))
      (launchA 0x3F800000#32 er ec ev
        (launchE er ec ev (table u it))
        (launchA 0x3F800000#32 er ec ev (table u it) (table u it))))

/-! ## The reference's result -/

/-- One layer as the reference spells it. -/
def layer (er ec : IVec S1200000 32) (ev : FVec F S1200000 .f32) (E : FVec F S150000x64 .f32) : FVec F S150000x64 .f32 :=
  addf (mulf (broadcastInDim S150000x64 ![] bcast_S_S150000x64 (constant S_ .f32 0x3E4CCCCD#32)) E)
    (mulf (broadcastInDim S150000x64 ![] bcast_S_S150000x64 (constant S_ .f32 0x3F4CCCCD#32)) (spread er ec ev E))

/-- What the reference returns: the scores of the mean of the four tables. -/
def referenceOut (us its : IVec S4096 32) (er ec : IVec S1200000 32) (ev : FVec F S1200000 .f32)
    (u : FVec F S100000x64 .f32) (it : FVec F S50000x64 .f32) : FVec F S4096 .f32 :=
  score us its
    (Host.divf
      (addf (addf (addf (table u it) (layer er ec ev (table u it))) (layer er ec ev (layer er ec ev (table u it))))
        (layer er ec ev (layer er ec ev (layer er ec ev (table u it)))))
      (broadcastInDim S150000x64 ![] bcast_S_S150000x64 (constant S_ .f32 0x40800000#32)))

/-- The reference's layer is the propagation step: the two spellings of a splat constant read the same at every index. -/
theorem layer_eq (er ec : IVec S1200000 32) (ev : FVec F S1200000 .f32) (E : FVec F S150000x64 .f32) :
    layer er ec ev E = step E (spread er ec ev E) := rfl

end Cert.KernelIdeal.Spec

end
-- ==== Proof.Consts.lean ====
/-
  The float words the two programs spell beside the shared 0.2 and 0.8, as the extended reals they denote: the
  kernel's scale words 1.0 and 0.25 and the reference's divisor 4.0. All three are exact binary values.
-/
import Idealize.ShloMosaic.PureOps.Ideal

noncomputable section

namespace Cert.KernelIdeal.Consts

open Idealize.ShloMosaic

/-- The word of 1.0 denotes 1. -/
theorem one : Ideal.ofBits .f32 0x3F800000#32 = 1 := by
  simp [Ideal.ofBits, Ideal.ieee, -EReal.coe_mul]; norm_num

/-- The word of 0.25 denotes the real 1/4. -/
theorem quarter : Ideal.ofBits .f32 0x3E800000#32 = ((1 / 4 : ℝ) : EReal) := by
  simp [Ideal.ofBits, Ideal.ieee, -EReal.coe_mul]; norm_num

/-- The word of 4.0 denotes the real 4. -/
theorem four : Ideal.ofBits .f32 0x40800000#32 = ((4 : ℝ) : EReal) := by
  simp [Ideal.ofBits, Ideal.ieee, -EReal.coe_mul]; norm_num

end Cert.KernelIdeal.Consts

end
-- ==== Proof.Same.lean ====
/-
  The two results are one function. With E1 = step T (G T), E2 = step E1 (G E1), E3 = step E2 (G E2) — the re-laying
  around each launch already cancelled — the kernel's running total is
      ((T + E1) * 1 + E2) * 1 + E3) * (1/4)
  and the reference's mean is (((T + E1) + E2) + E3) / 4. On the extended reals x * 1 = x for every x, and division by
  the real 4 IS multiplication by the real 1/4 for every x, infinite or not; nothing else differs, and the scores are
  the same function of the two.
-/
import proofs.«136068_j13134009991424_2_alg».proof.Proof.Spec
import proofs.«136068_j13134009991424_2_alg».proof.Proof.Consts

noncomputable section

namespace Cert.KernelIdeal.Spec

open Cert.KernelIdeal Idealize.ShloMosaic
open Cert.KernelIdeal.Facts₀ Cert.KernelIdeal.Facts

/-- Scaling the running total by the word of 1.0 does nothing. -/
theorem total_one {sh : Shape} (x s a : FVec Ideal sh .f32) : total 0x3F800000#32 x s a = addf a (step x s) := by
  funext i
  simp only [total, mulf, addf, broadcast, Ideal.mulf_def, Ideal.addf_def, Ideal.ofBits_def, Consts.one, mul_one]

/-- Scaling the running total by the word of 0.25 is the reference's division by the word of 4.0. -/
theorem total_quarter (x s a : FVec Ideal S150000x64 .f32) :
    total 0x3E800000#32 x s a
      = Host.divf (addf a (step x s)) (broadcastInDim S150000x64 ![] bcast_S_S150000x64 (constant S_ .f32 0x40800000#32)) := by
  funext i
  simp only [total, Host.divf, mulf, addf, broadcast, broadcastInDim, constant, Ideal.mulf_def, Ideal.addf_def, Ideal.hostDivf_def,
    Ideal.ofBits_def, Consts.quarter, Consts.four, Ideal.div_coe (by norm_num : (4 : ℝ) ≠ 0)]

/-- At the exact instance the kernel's program and the reference return the same scores. -/
theorem kernelOut_eq_referenceOut (us its : IVec S4096 32) (er ec : IVec S1200000 32) (ev : FVec Ideal S1200000 .f32)
    (u : FVec Ideal S100000x64 .f32) (it : FVec Ideal S50000x64 .f32) :
    kernelOut (F := Ideal) us its er ec ev u it = referenceOut (F := Ideal) us its er ec ev u it := by
  unfold kernelOut referenceOut
  simp only [launchE_eq, launchA_eq, layer_eq, total_one, total_quarter]

end Cert.KernelIdeal.Spec

end
-- ==== Proof.KernelRun.lean ====
/-
  The idealized kernel's run, read at its result. @main is four stretches of host operations around three launches of
  the blend kernel; the generated frame already names the buffer contents at every boundary (a fold through @main:
  `Gen.W1` … `Gen.W7`) and proves each segment's triple. Here the same launch is read once more at the END: every
  weakly fair execution terminates, the result buffer holds the last boundary's contents `Gen.W7` at that buffer, and
  the seven argument arrays are as launched. What `Gen.W7` holds there as a function of the arguments is another module's
  business.
-/
import proofs.«136068_j13134009991424_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents and the arguments end as launched. -/
theorem run : θ_run defs (onTc (τ := τ) (main (F := F))) ⟨m, fun _ => 0, ρ⟩ (fun r => ∀ c : Dev nD,
      r.2.mem ((c.tc : Thread nD τ).loc main_v75) = W7 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v75 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.Run

end
-- ==== Proof.Mix.lean ====
/-
  The blend kernel, one launch at a time. Each launch sees three arrays of 75000 rows by 128 lanes — the current
  embedding table x, the propagated messages s and the running total a, all three re-laid from 150000 x 64 — and cuts
  them into 25 blocks of 3000 rows. At every block the body stores
      x' = 0.2 * x + 0.8 * s        and        a' = (a + x') * k,
  k the launch's scale word (1 on the first two launches, 1/4 on the last). The arithmetic is pointwise and every
  window's block at grid point t is rows 3000 t .. 3000 t + 2999, so block t of each output is block t of ONE
  whole-array function of the three inputs; the 25 blocks tile the rows, so after the launch each output array IS that
  function of the arrays the launch found. Stated for any float instance and for arbitrary contents at entry.
-/
import proofs.«136068_j13134009991424_2_alg».proof.Proof.Gen.KernelIdeal.Frame
import proofs.«136068_j13134009991424_2_alg».proof.Proof.Spec
import Idealize.ShloMosaic.Lib.Pipeline.Value

set_option maxRecDepth 16384

noncomputable section

namespace Cert.KernelIdeal.Mix

open Cert.KernelIdeal Cert.KernelIdeal.Gen Idealize.ShloMosaic Idealize.ShloMosaic.TcCoe Idealize.SL.Sem
open Idealize.ShloMosaic.Pipeline (Dat)
open Cert.KernelIdeal.Spec (step total)

variable {F : FTy → Type} [FloatOps F]

/-- The body's accesses all start at the block's origin. -/
theorem origin : (![0, 0] : Fin 2 → Nat) = fun _ => 0 := funext fun a => by fin_cases a <;> rfl

variable (V : (c : Dev nD) → (b : Ref sig .tc) → Buf (Elt F) ((c : Thread nD τ).loc b))

/-! ## Region 0 -/

/-- The body's first stored value is the propagation step of its first two loaded blocks (the casts to the same shape are the identity). -/
theorem pay0_1 (x s : Vec F S3000x128 .f32) : k0_pay1 x s = step x s := by
  unfold k0_pay1 step
  simp only [shapeCast_self]

/-- The body's second stored value is the scaled running total of its three loaded blocks. -/
theorem pay0_2 (x s a : Vec F S3000x128 .f32) : k0_pay2 x s a = total 0x3F800000#32 x s a := by
  unfold k0_pay2 total
  rw [pay0_1]
  simp only [shapeCast_self]

/-- The index maps of the five windows, decided over the grid: every window's block at point `t` is block row `t`, column block 0
    (stated relative to window 0's). -/
theorem idx0 : ∀ t : Fin cfg0.N,
    win0_0.index t (1 : Fin 2) = 0
    ∧ win0_1.index t (0 : Fin 2) = win0_0.index t (0 : Fin 2) ∧ win0_1.index t (1 : Fin 2) = 0
    ∧ win0_2.index t (0 : Fin 2) = win0_0.index t (0 : Fin 2) ∧ win0_2.index t (1 : Fin 2) = 0
    ∧ win0_0.index t (0 : Fin 2) ≤ 24
    ∧ win0_3.index t (0 : Fin 2) = win0_0.index t (0 : Fin 2) ∧ win0_3.index t (1 : Fin 2) = 0
    ∧ win0_4.index t (0 : Fin 2) = win0_0.index t (0 : Fin 2) ∧ win0_4.index t (1 : Fin 2) = 0 :=
  (by decide +kernel : ∀ t : Fin grid0.N, _)

/-- Every block row is some point's. -/
theorem onto0 : ∀ q : Fin 25, ∃ t : Fin cfg0.N, win0_0.index t (0 : Fin 2) = q.val :=
  (by decide +kernel : ∀ q : Fin 25, ∃ t : Fin grid0.N, win0_0.index t (0 : Fin 2) = q.val)

/-- What point `t` writes back through window 3 is block `t` of the propagation step of the two arrays the region finds. -/
theorem flushed0_3 (c : Dev nD) (t : Fin cfg0.N) :
    (dat0 V c).flushed 3 t = ((cfg0.win 3).blk t).view.read (Elt F) (step (V c main_v14) (V c main_v15)) := by
  show (cfg0.win 3).cut (grid0.coords t) ((dat0 V c).after 3 t) = _
  rw [after0_3]
  unfold out0_3
  rw [View.canon_unit_zero origin]
  simp only [View.ld_unit_zero (S := S3000x128) origin]
  rw [pay0_1]
  obtain ⟨e01, e10, e11, e20, e21, eb, e30, e31, e40, e41⟩ := idx0 t
  funext j
  have hj0 : (j 0).val < 3000 := (j 0).isLt
  have hj1 : (j 1).val < 128 := (j 1).isLt
  show FloatOps.addf (FloatOps.mulf (Scalar.ofBits .f32 0x3E4CCCCD#32) (V c main_v14 (((cfg0.win 0).blk t).view.emb j))) (FloatOps.mulf (Scalar.ofBits .f32 0x3F4CCCCD#32) (V c main_v15 (((cfg0.win 1).blk t).view.emb j)))
    = FloatOps.addf (FloatOps.mulf (Scalar.ofBits .f32 0x3E4CCCCD#32) (V c main_v14 (((cfg0.win 3).blk t).view.emb j))) (FloatOps.mulf (Scalar.ofBits .f32 0x3F4CCCCD#32) (V c main_v15 (((cfg0.win 3).blk t).view.emb j)))
  have h0 : ((cfg0.win 0).blk t).view.emb j = ((cfg0.win 3).blk t).view.emb j := by
    funext a; apply Fin.ext
    match a with
    | ⟨0, _⟩ => show win0_0.index t (0 : Fin 2) * 3000 + 1 * (j 0).val = win0_3.index t (0 : Fin 2) * 3000 + 1 * (j 0).val; omega
    | ⟨1, _⟩ => show win0_0.index t (1 : Fin 2) * 128 + 1 * (j 1).val = win0_3.index t (1 : Fin 2) * 128 + 1 * (j 1).val; omega
  have h1 : ((cfg0.win 1).blk t).view.emb j = ((cfg0.win 3).blk t).view.emb j := by
    funext a; apply Fin.ext
    match a with
    | ⟨0, _⟩ => show win0_1.index t (0 : Fin 2) * 3000 + 1 * (j 0).val = win0_3.index t (0 : Fin 2) * 3000 + 1 * (j 0).val; omega
    | ⟨1, _⟩ => show win0_1.index t (1 : Fin 2) * 128 + 1 * (j 1).val = win0_3.index t (1 : Fin 2) * 128 + 1 * (j 1).val; omega
  rw [h0, h1]

/-- What point `t` writes back through window 4 is block `t` of the scaled running total of the three arrays the region finds. -/
theorem flushed0_4 (c : Dev nD) (t : Fin cfg0.N) :
    (dat0 V c).flushed 4 t = ((cfg0.win 4).blk t).view.read (Elt F) (total 0x3F800000#32 (V c main_v14) (V c main_v15) (V c main_v16)) := by
  show (cfg0.win 4).cut (grid0.coords t) ((dat0 V c).after 4 t) = _
  rw [after0_4]
  unfold out0_4
  rw [View.canon_unit_zero origin]
  simp only [View.ld_unit_zero (S := S3000x128) origin]
  rw [pay0_2]
  obtain ⟨e01, e10, e11, e20, e21, eb, e30, e31, e40, e41⟩ := idx0 t
  funext j
  have hj0 : (j 0).val < 3000 := (j 0).isLt
  have hj1 : (j 1).val < 128 := (j 1).isLt
  show FloatOps.mulf (FloatOps.addf (V c main_v16 (((cfg0.win 2).blk t).view.emb j)) (FloatOps.addf (FloatOps.mulf (Scalar.ofBits .f32 0x3E4CCCCD#32) (V c main_v14 (((cfg0.win 0).blk t).view.emb j))) (FloatOps.mulf (Scalar.ofBits .f32 0x3F4CCCCD#32) (V c main_v15 (((cfg0.win 1).blk t).view.emb j))))) (Scalar.ofBits .f32 0x3F800000#32)
    = FloatOps.mulf (FloatOps.addf (V c main_v16 (((cfg0.win 4).blk t).view.emb j)) (FloatOps.addf (FloatOps.mulf (Scalar.ofBits .f32 0x3E4CCCCD#32) (V c main_v14 (((cfg0.win 4).blk t).view.emb j))) (FloatOps.mulf (Scalar.ofBits .f32 0x3F4CCCCD#32) (V c main_v15 (((cfg0.win 4).blk t).view.emb j))))) (Scalar.ofBits .f32 0x3F800000#32)
  have h0 : ((cfg0.win 0).blk t).view.emb j = ((cfg0.win 4).blk t).view.emb j := by
    funext a; apply Fin.ext
    match a with
    | ⟨0, _⟩ => show win0_0.index t (0 : Fin 2) * 3000 + 1 * (j 0).val = win0_4.index t (0 : Fin 2) * 3000 + 1 * (j 0).val; omega
    | ⟨1, _⟩ => show win0_0.index t (1 : Fin 2) * 128 + 1 * (j 1).val = win0_4.index t (1 : Fin 2) * 128 + 1 * (j 1).val; omega
  have h1 : ((cfg0.win 1).blk t).view.emb j = ((cfg0.win 4).blk t).view.emb j := by
    funext a; apply Fin.ext
    match a with
    | ⟨0, _⟩ => show win0_1.index t (0 : Fin 2) * 3000 + 1 * (j 0).val = win0_4.index t (0 : Fin 2) * 3000 + 1 * (j 0).val; omega
    | ⟨1, _⟩ => show win0_1.index t (1 : Fin 2) * 128 + 1 * (j 1).val = win0_4.index t (1 : Fin 2) * 128 + 1 * (j 1).val; omega
  have h2 : ((cfg0.win 2).blk t).view.emb j = ((cfg0.win 4).blk t).view.emb j := by
    funext a; apply Fin.ext
    match a with
    | ⟨0, _⟩ => show win0_2.index t (0 : Fin 2) * 3000 + 1 * (j 0).val = win0_4.index t (0 : Fin 2) * 3000 + 1 * (j 0).val; omega
    | ⟨1, _⟩ => show win0_2.index t (1 : Fin 2) * 128 + 1 * (j 1).val = win0_4.index t (1 : Fin 2) * 128 + 1 * (j 1).val; omega
  rw [h0, h1, h2]

/-- An index of the lane-dense array lies in point `t`'s block of window 3 iff each coordinate lies in the block's range. -/
theorem mem_blk0_3 (t : Fin cfg0.N) (i : S75000x128.Idx) :
    i ∈ ((cfg0.win 3).blk t).view.set ↔ ∀ a : Fin 2, win0_3.index t a * S3000x128.size a ≤ (i a).val ∧ (i a).val < win0_3.index t a * S3000x128.size a + S3000x128.size a := by
  show i ∈ ((View.whole main_v17_0).slice (win0_3.rect t)).set ↔ _
  rw [View.set_slice_whole, Rect.mem_set_unit]
  exact Iff.rfl

/-- The 25 blocks of 3000 rows tile the 75000 rows: row `r` lies in the block of point `r / 3000`. -/
theorem cover0_3 (i : S75000x128.Idx) :
    ∃ t : Fin cfg0.N, (cfg0.win 3).flush t = true ∧ i ∈ ((cfg0.win 3).blk t).view.set := by
  have hi0 : (i 0).val < 75000 := (i 0).isLt
  have hi1 : (i 1).val < 128 := (i 1).isLt
  obtain ⟨t, ht⟩ := onto0 ⟨(i 0).val / 3000, by omega⟩
  obtain ⟨-, -, -, -, -, -, e30, e31, e40, e41⟩ := idx0 t
  have q : win0_0.index t (0 : Fin 2) = (i 0).val / 3000 := ht
  refine ⟨t, flush0_3 t, ?_⟩
  rw [mem_blk0_3]
  intro a
  match a with
  | ⟨0, _⟩ => show win0_3.index t (0 : Fin 2) * 3000 ≤ (i 0).val ∧ (i 0).val < win0_3.index t (0 : Fin 2) * 3000 + 3000; omega
  | ⟨1, _⟩ => show win0_3.index t (1 : Fin 2) * 128 ≤ (i 1).val ∧ (i 1).val < win0_3.index t (1 : Fin 2) * 128 + 128; omega

/-- An index of the lane-dense array lies in point `t`'s block of window 4 iff each coordinate lies in the block's range. -/
theorem mem_blk0_4 (t : Fin cfg0.N) (i : S75000x128.Idx) :
    i ∈ ((cfg0.win 4).blk t).view.set ↔ ∀ a : Fin 2, win0_4.index t a * S3000x128.size a ≤ (i a).val ∧ (i a).val < win0_4.index t a * S3000x128.size a + S3000x128.size a := by
  show i ∈ ((View.whole main_v17_1).slice (win0_4.rect t)).set ↔ _
  rw [View.set_slice_whole, Rect.mem_set_unit]
  exact Iff.rfl

/-- The 25 blocks of 3000 rows tile the 75000 rows: row `r` lies in the block of point `r / 3000`. -/
theorem cover0_4 (i : S75000x128.Idx) :
    ∃ t : Fin cfg0.N, (cfg0.win 4).flush t = true ∧ i ∈ ((cfg0.win 4).blk t).view.set := by
  have hi0 : (i 0).val < 75000 := (i 0).isLt
  have hi1 : (i 1).val < 128 := (i 1).isLt
  obtain ⟨t, ht⟩ := onto0 ⟨(i 0).val / 3000, by omega⟩
  obtain ⟨-, -, -, -, -, -, e30, e31, e40, e41⟩ := idx0 t
  have q : win0_0.index t (0 : Fin 2) = (i 0).val / 3000 := ht
  refine ⟨t, flush0_4 t, ?_⟩
  rw [mem_blk0_4]
  intro a
  match a with
  | ⟨0, _⟩ => show win0_4.index t (0 : Fin 2) * 3000 ≤ (i 0).val ∧ (i 0).val < win0_4.index t (0 : Fin 2) * 3000 + 3000; omega
  | ⟨1, _⟩ => show win0_4.index t (1 : Fin 2) * 128 ≤ (i 1).val ∧ (i 1).val < win0_4.index t (1 : Fin 2) * 128 + 128; omega

/-- After region 0 its first output array holds the propagation step of the embedding and the propagated messages it found. -/
theorem next0 (c : Dev nD) : (dat0 V c).arrAt 3 cfg0.N = step (V c main_v14) (V c main_v15) :=
  (dat0 V c).arrAt_eq_of_cover 3 (step (V c main_v14) (V c main_v15)) (fun t _ => flushed0_3 V c t) (cover0_3)

/-- After region 0 its second output array holds the scaled running total. -/
theorem acc0 (c : Dev nD) : (dat0 V c).arrAt 4 cfg0.N = total 0x3F800000#32 (V c main_v14) (V c main_v15) (V c main_v16) :=
  (dat0 V c).arrAt_eq_of_cover 4 (total 0x3F800000#32 (V c main_v14) (V c main_v15) (V c main_v16)) (fun t _ => flushed0_4 V c t) (cover0_4)

/-! ## Region 1 -/

/-- The body's first stored value is the propagation step of its first two loaded blocks (the casts to the same shape are the identity). -/
theorem pay1_1 (x s : Vec F S3000x128 .f32) : k1_pay1 x s = step x s := by
  unfold k1_pay1 step
  simp only [shapeCast_self]

/-- The body's second stored value is the scaled running total of its three loaded blocks. -/
theorem pay1_2 (x s a : Vec F S3000x128 .f32) : k1_pay2 x s a = total 0x3F800000#32 x s a := by
  unfold k1_pay2 total
  rw [pay1_1]
  simp only [shapeCast_self]

/-- The index maps of the five windows, decided over the grid: every window's block at point `t` is block row `t`, column block 0
    (stated relative to window 0's). -/
theorem idx1 : ∀ t : Fin cfg1.N,
    win1_0.index t (1 : Fin 2) = 0
    ∧ win1_1.index t (0 : Fin 2) = win1_0.index t (0 : Fin 2) ∧ win1_1.index t (1 : Fin 2) = 0
    ∧ win1_2.index t (0 : Fin 2) = win1_0.index t (0 : Fin 2) ∧ win1_2.index t (1 : Fin 2) = 0
    ∧ win1_0.index t (0 : Fin 2) ≤ 24
    ∧ win1_3.index t (0 : Fin 2) = win1_0.index t (0 : Fin 2) ∧ win1_3.index t (1 : Fin 2) = 0
    ∧ win1_4.index t (0 : Fin 2) = win1_0.index t (0 : Fin 2) ∧ win1_4.index t (1 : Fin 2) = 0 :=
  (by decide +kernel : ∀ t : Fin grid1.N, _)

/-- Every block row is some point's. -/
theorem onto1 : ∀ q : Fin 25, ∃ t : Fin cfg1.N, win1_0.index t (0 : Fin 2) = q.val :=
  (by decide +kernel : ∀ q : Fin 25, ∃ t : Fin grid1.N, win1_0.index t (0 : Fin 2) = q.val)

/-- What point `t` writes back through window 3 is block `t` of the propagation step of the two arrays the region finds. -/
theorem flushed1_3 (c : Dev nD) (t : Fin cfg1.N) :
    (dat1 V c).flushed 3 t = ((cfg1.win 3).blk t).view.read (Elt F) (step (V c main_v33) (V c main_v34)) := by
  show (cfg1.win 3).cut (grid1.coords t) ((dat1 V c).after 3 t) = _
  rw [after1_3]
  unfold out1_3
  rw [View.canon_unit_zero origin]
  simp only [View.ld_unit_zero (S := S3000x128) origin]
  rw [pay1_1]
  obtain ⟨e01, e10, e11, e20, e21, eb, e30, e31, e40, e41⟩ := idx1 t
  funext j
  have hj0 : (j 0).val < 3000 := (j 0).isLt
  have hj1 : (j 1).val < 128 := (j 1).isLt
  show FloatOps.addf (FloatOps.mulf (Scalar.ofBits .f32 0x3E4CCCCD#32) (V c main_v33 (((cfg1.win 0).blk t).view.emb j))) (FloatOps.mulf (Scalar.ofBits .f32 0x3F4CCCCD#32) (V c main_v34 (((cfg1.win 1).blk t).view.emb j)))
    = FloatOps.addf (FloatOps.mulf (Scalar.ofBits .f32 0x3E4CCCCD#32) (V c main_v33 (((cfg1.win 3).blk t).view.emb j))) (FloatOps.mulf (Scalar.ofBits .f32 0x3F4CCCCD#32) (V c main_v34 (((cfg1.win 3).blk t).view.emb j)))
  have h0 : ((cfg1.win 0).blk t).view.emb j = ((cfg1.win 3).blk t).view.emb j := by
    funext a; apply Fin.ext
    match a with
    | ⟨0, _⟩ => show win1_0.index t (0 : Fin 2) * 3000 + 1 * (j 0).val = win1_3.index t (0 : Fin 2) * 3000 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb j = ((cfg1.win 3).blk t).view.emb j := by
    funext a; apply Fin.ext
    match a with
    | ⟨0, _⟩ => show win1_1.index t (0 : Fin 2) * 3000 + 1 * (j 0).val = win1_3.index t (0 : Fin 2) * 3000 + 1 * (j 0).val; omega
    | ⟨1, _⟩ => show win1_1.index t (1 : Fin 2) * 128 + 1 * (j 1).val = win1_3.index t (1 : Fin 2) * 128 + 1 * (j 1).val; omega
  rw [h0, h1]

/-- What point `t` writes back through window 4 is block `t` of the scaled running total of the three arrays the region finds. -/
theorem flushed1_4 (c : Dev nD) (t : Fin cfg1.N) :
    (dat1 V c).flushed 4 t = ((cfg1.win 4).blk t).view.read (Elt F) (total 0x3F800000#32 (V c main_v33) (V c main_v34) (V c main_v35)) := by
  show (cfg1.win 4).cut (grid1.coords t) ((dat1 V c).after 4 t) = _
  rw [after1_4]
  unfold out1_4
  rw [View.canon_unit_zero origin]
  simp only [View.ld_unit_zero (S := S3000x128) origin]
  rw [pay1_2]
  obtain ⟨e01, e10, e11, e20, e21, eb, e30, e31, e40, e41⟩ := idx1 t
  funext j
  have hj0 : (j 0).val < 3000 := (j 0).isLt
  have hj1 : (j 1).val < 128 := (j 1).isLt
  show FloatOps.mulf (FloatOps.addf (V c main_v35 (((cfg1.win 2).blk t).view.emb j)) (FloatOps.addf (FloatOps.mulf (Scalar.ofBits .f32 0x3E4CCCCD#32) (V c main_v33 (((cfg1.win 0).blk t).view.emb j))) (FloatOps.mulf (Scalar.ofBits .f32 0x3F4CCCCD#32) (V c main_v34 (((cfg1.win 1).blk t).view.emb j))))) (Scalar.ofBits .f32 0x3F800000#32)
    = FloatOps.mulf (FloatOps.addf (V c main_v35 (((cfg1.win 4).blk t).view.emb j)) (FloatOps.addf (FloatOps.mulf (Scalar.ofBits .f32 0x3E4CCCCD#32) (V c main_v33 (((cfg1.win 4).blk t).view.emb j))) (FloatOps.mulf (Scalar.ofBits .f32 0x3F4CCCCD#32) (V c main_v34 (((cfg1.win 4).blk t).view.emb j))))) (Scalar.ofBits .f32 0x3F800000#32)
  have h0 : ((cfg1.win 0).blk t).view.emb j = ((cfg1.win 4).blk t).view.emb j := by
    funext a; apply Fin.ext
    match a with
    | ⟨0, _⟩ => show win1_0.index t (0 : Fin 2) * 3000 + 1 * (j 0).val = win1_4.index t (0 : Fin 2) * 3000 + 1 * (j 0).val; omega
    | ⟨1, _⟩ => show win1_0.index t (1 : Fin 2) * 128 + 1 * (j 1).val = win1_4.index t (1 : Fin 2) * 128 + 1 * (j 1).val; omega
  have h1 : ((cfg1.win 1).blk t).view.emb j = ((cfg1.win 4).blk t).view.emb j := by
    funext a; apply Fin.ext
    match a with
    | ⟨0, _⟩ => show win1_1.index t (0 : Fin 2) * 3000 + 1 * (j 0).val = win1_4.index t (0 : Fin 2) * 3000 + 1 * (j 0).val; omega
    | ⟨1, _⟩ => show win1_1.index t (1 : Fin 2) * 128 + 1 * (j 1).val = win1_4.index t (1 : Fin 2) * 128 + 1 * (j 1).val; omega
  have h2 : ((cfg1.win 2).blk t).view.emb j = ((cfg1.win 4).blk t).view.emb j := by
    funext a; apply Fin.ext
    match a with
    | ⟨0, _⟩ => show win1_2.index t (0 : Fin 2) * 3000 + 1 * (j 0).val = win1_4.index t (0 : Fin 2) * 3000 + 1 * (j 0).val; omega
    | ⟨1, _⟩ => show win1_2.index t (1 : Fin 2) * 128 + 1 * (j 1).val = win1_4.index t (1 : Fin 2) * 128 + 1 * (j 1).val; omega
  rw [h0, h1, h2]

/-- An index of the lane-dense array lies in point `t`'s block of window 3 iff each coordinate lies in the block's range. -/
theorem mem_blk1_3 (t : Fin cfg1.N) (i : S75000x128.Idx) :
    i ∈ ((cfg1.win 3).blk t).view.set ↔ ∀ a : Fin 2, win1_3.index t a * S3000x128.size a ≤ (i a).val ∧ (i a).val < win1_3.index t a * S3000x128.size a + S3000x128.size a := by
  show i ∈ ((View.whole main_v36_0).slice (win1_3.rect t)).set ↔ _
  rw [View.set_slice_whole, Rect.mem_set_unit]
  exact Iff.rfl

/-- The 25 blocks of 3000 rows tile the 75000 rows: row `r` lies in the block of point `r / 3000`. -/
theorem cover1_3 (i : S75000x128.Idx) :
    ∃ t : Fin cfg1.N, (cfg1.win 3).flush t = true ∧ i ∈ ((cfg1.win 3).blk t).view.set := by
  have hi0 : (i 0).val < 75000 := (i 0).isLt
  have hi1 : (i 1).val < 128 := (i 1).isLt
  obtain ⟨t, ht⟩ := onto1 ⟨(i 0).val / 3000, by omega⟩
  obtain ⟨-, -, -, -, -, -, e30, e31, e40, e41⟩ := idx1 t
  have q : win1_0.index t (0 : Fin 2) = (i 0).val / 3000 := ht
  refine ⟨t, flush1_3 t, ?_⟩
  rw [mem_blk1_3]
  intro a
  match a with
  | ⟨0, _⟩ => show win1_3.index t (0 : Fin 2) * 3000 ≤ (i 0).val ∧ (i 0).val < win1_3.index t (0 : Fin 2) * 3000 + 3000; omega
  | ⟨1, _⟩ => show win1_3.index t (1 : Fin 2) * 128 ≤ (i 1).val ∧ (i 1).val < win1_3.index t (1 : Fin 2) * 128 + 128; omega

/-- An index of the lane-dense array lies in point `t`'s block of window 4 iff each coordinate lies in the block's range. -/
theorem mem_blk1_4 (t : Fin cfg1.N) (i : S75000x128.Idx) :
    i ∈ ((cfg1.win 4).blk t).view.set ↔ ∀ a : Fin 2, win1_4.index t a * S3000x128.size a ≤ (i a).val ∧ (i a).val < win1_4.index t a * S3000x128.size a + S3000x128.size a := by
  show i ∈ ((View.whole main_v36_1).slice (win1_4.rect t)).set ↔ _
  rw [View.set_slice_whole, Rect.mem_set_unit]
  exact Iff.rfl

/-- The 25 blocks of 3000 rows tile the 75000 rows: row `r` lies in the block of point `r / 3000`. -/
theorem cover1_4 (i : S75000x128.Idx) :
    ∃ t : Fin cfg1.N, (cfg1.win 4).flush t = true ∧ i ∈ ((cfg1.win 4).blk t).view.set := by
  have hi0 : (i 0).val < 75000 := (i 0).isLt
  have hi1 : (i 1).val < 128 := (i 1).isLt
  obtain ⟨t, ht⟩ := onto1 ⟨(i 0).val / 3000, by omega⟩
  obtain ⟨-, -, -, -, -, -, e30, e31, e40, e41⟩ := idx1 t
  have q : win1_0.index t (0 : Fin 2) = (i 0).val / 3000 := ht
  refine ⟨t, flush1_4 t, ?_⟩
  rw [mem_blk1_4]
  intro a
  match a with
  | ⟨0, _⟩ => show win1_4.index t (0 : Fin 2) * 3000 ≤ (i 0).val ∧ (i 0).val < win1_4.index t (0 : Fin 2) * 3000 + 3000; omega
  | ⟨1, _⟩ => show win1_4.index t (1 : Fin 2) * 128 ≤ (i 1).val ∧ (i 1).val < win1_4.index t (1 : Fin 2) * 128 + 128; omega

/-- After region 1 its first output array holds the propagation step of the embedding and the propagated messages it found. -/
theorem next1 (c : Dev nD) : (dat1 V c).arrAt 3 cfg1.N = step (V c main_v33) (V c main_v34) :=
  (dat1 V c).arrAt_eq_of_cover 3 (step (V c main_v33) (V c main_v34)) (fun t _ => flushed1_3 V c t) (cover1_3)

/-- After region 1 its second output array holds the scaled running total. -/
theorem acc1 (c : Dev nD) : (dat1 V c).arrAt 4 cfg1.N = total 0x3F800000#32 (V c main_v33) (V c main_v34) (V c main_v35) :=
  (dat1 V c).arrAt_eq_of_cover 4 (total 0x3F800000#32 (V c main_v33) (V c main_v34) (V c main_v35)) (fun t _ => flushed1_4 V c t) (cover1_4)

/-! ## Region 2 -/

/-- The body's first stored value is the propagation step of its first two loaded blocks (the casts to the same shape are the identity). -/
theorem pay2_1 (x s : Vec F S3000x128 .f32) : k2_pay1 x s = step x s := by
  unfold k2_pay1 step
  simp only [shapeCast_self]

/-- The body's second stored value is the scaled running total of its three loaded blocks. -/
theorem pay2_2 (x s a : Vec F S3000x128 .f32) : k2_pay2 x s a = total 0x3E800000#32 x s a := by
  unfold k2_pay2 total
  rw [pay2_1]
  simp only [shapeCast_self]

/-- The index maps of the five windows, decided over the grid: every window's block at point `t` is block row `t`, column block 0
    (stated relative to window 0's). -/
theorem idx2 : ∀ t : Fin cfg2.N,
    win2_0.index t (1 : Fin 2) = 0
    ∧ win2_1.index t (0 : Fin 2) = win2_0.index t (0 : Fin 2) ∧ win2_1.index t (1 : Fin 2) = 0
    ∧ win2_2.index t (0 : Fin 2) = win2_0.index t (0 : Fin 2) ∧ win2_2.index t (1 : Fin 2) = 0
    ∧ win2_0.index t (0 : Fin 2) ≤ 24
    ∧ win2_3.index t (0 : Fin 2) = win2_0.index t (0 : Fin 2) ∧ win2_3.index t (1 : Fin 2) = 0
    ∧ win2_4.index t (0 : Fin 2) = win2_0.index t (0 : Fin 2) ∧ win2_4.index t (1 : Fin 2) = 0 :=
  (by decide +kernel : ∀ t : Fin grid2.N, _)

/-- Every block row is some point's. -/
theorem onto2 : ∀ q : Fin 25, ∃ t : Fin cfg2.N, win2_0.index t (0 : Fin 2) = q.val :=
  (by decide +kernel : ∀ q : Fin 25, ∃ t : Fin grid2.N, win2_0.index t (0 : Fin 2) = q.val)

/-- What point `t` writes back through window 3 is block `t` of the propagation step of the two arrays the region finds. -/
theorem flushed2_3 (c : Dev nD) (t : Fin cfg2.N) :
    (dat2 V c).flushed 3 t = ((cfg2.win 3).blk t).view.read (Elt F) (step (V c main_v52) (V c main_v53)) := by
  show (cfg2.win 3).cut (grid2.coords t) ((dat2 V c).after 3 t) = _
  rw [after2_3]
  unfold out2_3
  rw [View.canon_unit_zero origin]
  simp only [View.ld_unit_zero (S := S3000x128) origin]
  rw [pay2_1]
  obtain ⟨e01, e10, e11, e20, e21, eb, e30, e31, e40, e41⟩ := idx2 t
  funext j
  have hj0 : (j 0).val < 3000 := (j 0).isLt
  have hj1 : (j 1).val < 128 := (j 1).isLt
  show FloatOps.addf (FloatOps.mulf (Scalar.ofBits .f32 0x3E4CCCCD#32) (V c main_v52 (((cfg2.win 0).blk t).view.emb j))) (FloatOps.mulf (Scalar.ofBits .f32 0x3F4CCCCD#32) (V c main_v53 (((cfg2.win 1).blk t).view.emb j)))
    = FloatOps.addf (FloatOps.mulf (Scalar.ofBits .f32 0x3E4CCCCD#32) (V c main_v52 (((cfg2.win 3).blk t).view.emb j))) (FloatOps.mulf (Scalar.ofBits .f32 0x3F4CCCCD#32) (V c main_v53 (((cfg2.win 3).blk t).view.emb j)))
  have h0 : ((cfg2.win 0).blk t).view.emb j = ((cfg2.win 3).blk t).view.emb j := by
    funext a; apply Fin.ext
    match a with
    | ⟨0, _⟩ => show win2_0.index t (0 : Fin 2) * 3000 + 1 * (j 0).val = win2_3.index t (0 : Fin 2) * 3000 + 1 * (j 0).val; omega
    | ⟨1, _⟩ => show win2_0.index t (1 : Fin 2) * 128 + 1 * (j 1).val = win2_3.index t (1 : Fin 2) * 128 + 1 * (j 1).val; omega
  have h1 : ((cfg2.win 1).blk t).view.emb j = ((cfg2.win 3).blk t).view.emb j := by
    funext a; apply Fin.ext
    match a with
    | ⟨0, _⟩ => show win2_1.index t (0 : Fin 2) * 3000 + 1 * (j 0).val = win2_3.index t (0 : Fin 2) * 3000 + 1 * (j 0).val; omega
    | ⟨1, _⟩ => show win2_1.index t (1 : Fin 2) * 128 + 1 * (j 1).val = win2_3.index t (1 : Fin 2) * 128 + 1 * (j 1).val; omega
  rw [h0, h1]

/-- What point `t` writes back through window 4 is block `t` of the scaled running total of the three arrays the region finds. -/
theorem flushed2_4 (c : Dev nD) (t : Fin cfg2.N) :
    (dat2 V c).flushed 4 t = ((cfg2.win 4).blk t).view.read (Elt F) (total 0x3E800000#32 (V c main_v52) (V c main_v53) (V c main_v54)) := by
  show (cfg2.win 4).cut (grid2.coords t) ((dat2 V c).after 4 t) = _
  rw [after2_4]
  unfold out2_4
  rw [View.canon_unit_zero origin]
  simp only [View.ld_unit_zero (S := S3000x128) origin]
  rw [pay2_2]
  obtain ⟨e01, e10, e11, e20, e21, eb, e30, e31, e40, e41⟩ := idx2 t
  funext j
  have hj0 : (j 0).val < 3000 := (j 0).isLt
  have hj1 : (j 1).val < 128 := (j 1).isLt
  show FloatOps.mulf (FloatOps.addf (V c main_v54 (((cfg2.win 2).blk t).view.emb j)) (FloatOps.addf (FloatOps.mulf (Scalar.ofBits .f32 0x3E4CCCCD#32) (V c main_v52 (((cfg2.win 0).blk t).view.emb j))) (FloatOps.mulf (Scalar.ofBits .f32 0x3F4CCCCD#32) (V c main_v53 (((cfg2.win 1).blk t).view.emb j))))) (Scalar.ofBits .f32 0x3E800000#32)
    = FloatOps.mulf (FloatOps.addf (V c main_v54 (((cfg2.win 4).blk t).view.emb j)) (FloatOps.addf (FloatOps.mulf (Scalar.ofBits .f32 0x3E4CCCCD#32) (V c main_v52 (((cfg2.win 4).blk t).view.emb j))) (FloatOps.mulf (Scalar.ofBits .f32 0x3F4CCCCD#32) (V c main_v53 (((cfg2.win 4).blk t).view.emb j))))) (Scalar.ofBits .f32 0x3E800000#32)
  have h0 : ((cfg2.win 0).blk t).view.emb j = ((cfg2.win 4).blk t).view.emb j := by
    funext a; apply Fin.ext
    match a with
    | ⟨0, _⟩ => show win2_0.index t (0 : Fin 2) * 3000 + 1 * (j 0).val = win2_4.index t (0 : Fin 2) * 3000 + 1 * (j 0).val; omega
    | ⟨1, _⟩ => show win2_0.index t (1 : Fin 2) * 128 + 1 * (j 1).val = win2_4.index t (1 : Fin 2) * 128 + 1 * (j 1).val; omega
  have h1 : ((cfg2.win 1).blk t).view.emb j = ((cfg2.win 4).blk t).view.emb j := by
    funext a; apply Fin.ext
    match a with
    | ⟨0, _⟩ => show win2_1.index t (0 : Fin 2) * 3000 + 1 * (j 0).val = win2_4.index t (0 : Fin 2) * 3000 + 1 * (j 0).val; omega
    | ⟨1, _⟩ => show win2_1.index t (1 : Fin 2) * 128 + 1 * (j 1).val = win2_4.index t (1 : Fin 2) * 128 + 1 * (j 1).val; omega
  have h2 : ((cfg2.win 2).blk t).view.emb j = ((cfg2.win 4).blk t).view.emb j := by
    funext a; apply Fin.ext
    match a with
    | ⟨0, _⟩ => show win2_2.index t (0 : Fin 2) * 3000 + 1 * (j 0).val = win2_4.index t (0 : Fin 2) * 3000 + 1 * (j 0).val; omega
    | ⟨1, _⟩ => show win2_2.index t (1 : Fin 2) * 128 + 1 * (j 1).val = win2_4.index t (1 : Fin 2) * 128 + 1 * (j 1).val; omega
  rw [h0, h1, h2]

/-- An index of the lane-dense array lies in point `t`'s block of window 3 iff each coordinate lies in the block's range. -/
theorem mem_blk2_3 (t : Fin cfg2.N) (i : S75000x128.Idx) :
    i ∈ ((cfg2.win 3).blk t).view.set ↔ ∀ a : Fin 2, win2_3.index t a * S3000x128.size a ≤ (i a).val ∧ (i a).val < win2_3.index t a * S3000x128.size a + S3000x128.size a := by
  show i ∈ ((View.whole main_v55_0).slice (win2_3.rect t)).set ↔ _
  rw [View.set_slice_whole, Rect.mem_set_unit]
  exact Iff.rfl

/-- The 25 blocks of 3000 rows tile the 75000 rows: row `r` lies in the block of point `r / 3000`. -/
theorem cover2_3 (i : S75000x128.Idx) :
    ∃ t : Fin cfg2.N, (cfg2.win 3).flush t = true ∧ i ∈ ((cfg2.win 3).blk t).view.set := by
  have hi0 : (i 0).val < 75000 := (i 0).isLt
  have hi1 : (i 1).val < 128 := (i 1).isLt
  obtain ⟨t, ht⟩ := onto2 ⟨(i 0).val / 3000, by omega⟩
  obtain ⟨-, -, -, -, -, -, e30, e31, e40, e41⟩ := idx2 t
  have q : win2_0.index t (0 : Fin 2) = (i 0).val / 3000 := ht
  refine ⟨t, flush2_3 t, ?_⟩
  rw [mem_blk2_3]
  intro a
  match a with
  | ⟨0, _⟩ => show win2_3.index t (0 : Fin 2) * 3000 ≤ (i 0).val ∧ (i 0).val < win2_3.index t (0 : Fin 2) * 3000 + 3000; omega
  | ⟨1, _⟩ => show win2_3.index t (1 : Fin 2) * 128 ≤ (i 1).val ∧ (i 1).val < win2_3.index t (1 : Fin 2) * 128 + 128; omega

/-- An index of the lane-dense array lies in point `t`'s block of window 4 iff each coordinate lies in the block's range. -/
theorem mem_blk2_4 (t : Fin cfg2.N) (i : S75000x128.Idx) :
    i ∈ ((cfg2.win 4).blk t).view.set ↔ ∀ a : Fin 2, win2_4.index t a * S3000x128.size a ≤ (i a).val ∧ (i a).val < win2_4.index t a * S3000x128.size a + S3000x128.size a := by
  show i ∈ ((View.whole main_v55_1).slice (win2_4.rect t)).set ↔ _
  rw [View.set_slice_whole, Rect.mem_set_unit]
  exact Iff.rfl

/-- The 25 blocks of 3000 rows tile the 75000 rows: row `r` lies in the block of point `r / 3000`. -/
theorem cover2_4 (i : S75000x128.Idx) :
    ∃ t : Fin cfg2.N, (cfg2.win 4).flush t = true ∧ i ∈ ((cfg2.win 4).blk t).view.set := by
  have hi0 : (i 0).val < 75000 := (i 0).isLt
  have hi1 : (i 1).val < 128 := (i 1).isLt
  obtain ⟨t, ht⟩ := onto2 ⟨(i 0).val / 3000, by omega⟩
  obtain ⟨-, -, -, -, -, -, e30, e31, e40, e41⟩ := idx2 t
  have q : win2_0.index t (0 : Fin 2) = (i 0).val / 3000 := ht
  refine ⟨t, flush2_4 t, ?_⟩
  rw [mem_blk2_4]
  intro a
  match a with
  | ⟨0, _⟩ => show win2_4.index t (0 : Fin 2) * 3000 ≤ (i 0).val ∧ (i 0).val < win2_4.index t (0 : Fin 2) * 3000 + 3000; omega
  | ⟨1, _⟩ => show win2_4.index t (1 : Fin 2) * 128 ≤ (i 1).val ∧ (i 1).val < win2_4.index t (1 : Fin 2) * 128 + 128; omega

/-- After region 2 its first output array holds the propagation step of the embedding and the propagated messages it found. -/
theorem next2 (c : Dev nD) : (dat2 V c).arrAt 3 cfg2.N = step (V c main_v52) (V c main_v53) :=
  (dat2 V c).arrAt_eq_of_cover 3 (step (V c main_v52) (V c main_v53)) (fun t _ => flushed2_3 V c t) (cover2_3)

/-- After region 2 its second output array holds the scaled running total. -/
theorem acc2 (c : Dev nD) : (dat2 V c).arrAt 4 cfg2.N = total 0x3E800000#32 (V c main_v52) (V c main_v53) (V c main_v54) :=
  (dat2 V c).arrAt_eq_of_cover 4 (total 0x3E800000#32 (V c main_v52) (V c main_v53) (V c main_v54)) (fun t _ => flushed2_4 V c t) (cover2_4)

end Cert.KernelIdeal.Mix

end
-- ==== Proof.Kept.lean ====
/-
  No host operation and no launch writes an argument array, so at every boundary of @main an argument's buffer still
  holds what it was launched with. A launch leaves every buffer that is not one of its five arrays alone; a stretch of
  host operations leaves every buffer it does not assign alone. Read here for the arguments the later stretches use:
  the edge list (arguments 2, 3, 4) up to the third launch's entry, and the user and item indices (arguments 0, 1) up
  to the last stretch.
-/
import proofs.«136068_j13134009991424_2_alg».proof.Proof.Gen.KernelIdeal.Frame
import Idealize.ShloMosaic.Lib.StableHlo.Run

set_option maxRecDepth 16384

noncomputable section

namespace Cert.KernelIdeal.Kept

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Argument 0 -/

set_option maxHeartbeats 1000000 in
theorem W1_arg0 (c : Dev nD) : W1 m ρ c (Proc.devRef .tc main_arg0) = m ((c : Thread nD τ).loc main_arg0) := by
  show StableHlo.after hostOps0 (W0 m ρ c) (Proc.devRef .tc main_arg0) = _
  after_results_simp
theorem W2_arg0 (c : Dev nD) : W2 m ρ c (Proc.devRef .tc main_arg0) = m ((c : Thread nD τ).loc main_arg0) :=
  (W2_of_ne m ρ c main_arg0 (by decide)).trans (W1_arg0 m ρ c)
set_option maxHeartbeats 1000000 in
theorem W3_arg0 (c : Dev nD) : W3 m ρ c (Proc.devRef .tc main_arg0) = m ((c : Thread nD τ).loc main_arg0) := by
  show StableHlo.after hostOps1 (W2 m ρ c) (Proc.devRef .tc main_arg0) = _
  after_results_simp
  exact W2_arg0 m ρ c
theorem W4_arg0 (c : Dev nD) : W4 m ρ c (Proc.devRef .tc main_arg0) = m ((c : Thread nD τ).loc main_arg0) :=
  (W4_of_ne m ρ c main_arg0 (by decide)).trans (W3_arg0 m ρ c)
set_option maxHeartbeats 1000000 in
theorem W5_arg0 (c : Dev nD) : W5 m ρ c (Proc.devRef .tc main_arg0) = m ((c : Thread nD τ).loc main_arg0) := by
  show StableHlo.after hostOps2 (W4 m ρ c) (Proc.devRef .tc main_arg0) = _
  after_results_simp
  exact W4_arg0 m ρ c
theorem W6_arg0 (c : Dev nD) : W6 m ρ c (Proc.devRef .tc main_arg0) = m ((c : Thread nD τ).loc main_arg0) :=
  (W6_of_ne m ρ c main_arg0 (by decide)).trans (W5_arg0 m ρ c)

/-! ## Argument 1 -/

set_option maxHeartbeats 1000000 in
theorem W1_arg1 (c : Dev nD) : W1 m ρ c (Proc.devRef .tc main_arg1) = m ((c : Thread nD τ).loc main_arg1) := by
  show StableHlo.after hostOps0 (W0 m ρ c) (Proc.devRef .tc main_arg1) = _
  after_results_simp
theorem W2_arg1 (c : Dev nD) : W2 m ρ c (Proc.devRef .tc main_arg1) = m ((c : Thread nD τ).loc main_arg1) :=
  (W2_of_ne m ρ c main_arg1 (by decide)).trans (W1_arg1 m ρ c)
set_option maxHeartbeats 1000000 in
theorem W3_arg1 (c : Dev nD) : W3 m ρ c (Proc.devRef .tc main_arg1) = m ((c : Thread nD τ).loc main_arg1) := by
  show StableHlo.after hostOps1 (W2 m ρ c) (Proc.devRef .tc main_arg1) = _
  after_results_simp
  exact W2_arg1 m ρ c
theorem W4_arg1 (c : Dev nD) : W4 m ρ c (Proc.devRef .tc main_arg1) = m ((c : Thread nD τ).loc main_arg1) :=
  (W4_of_ne m ρ c main_arg1 (by decide)).trans (W3_arg1 m ρ c)
set_option maxHeartbeats 1000000 in
theorem W5_arg1 (c : Dev nD) : W5 m ρ c (Proc.devRef .tc main_arg1) = m ((c : Thread nD τ).loc main_arg1) := by
  show StableHlo.after hostOps2 (W4 m ρ c) (Proc.devRef .tc main_arg1) = _
  after_results_simp
  exact W4_arg1 m ρ c
theorem W6_arg1 (c : Dev nD) : W6 m ρ c (Proc.devRef .tc main_arg1) = m ((c : Thread nD τ).loc main_arg1) :=
  (W6_of_ne m ρ c main_arg1 (by decide)).trans (W5_arg1 m ρ c)

/-! ## Argument 2 -/

set_option maxHeartbeats 1000000 in
theorem W1_arg2 (c : Dev nD) : W1 m ρ c (Proc.devRef .tc main_arg2) = m ((c : Thread nD τ).loc main_arg2) := by
  show StableHlo.after hostOps0 (W0 m ρ c) (Proc.devRef .tc main_arg2) = _
  after_results_simp
theorem W2_arg2 (c : Dev nD) : W2 m ρ c (Proc.devRef .tc main_arg2) = m ((c : Thread nD τ).loc main_arg2) :=
  (W2_of_ne m ρ c main_arg2 (by decide)).trans (W1_arg2 m ρ c)
set_option maxHeartbeats 1000000 in
theorem W3_arg2 (c : Dev nD) : W3 m ρ c (Proc.devRef .tc main_arg2) = m ((c : Thread nD τ).loc main_arg2) := by
  show StableHlo.after hostOps1 (W2 m ρ c) (Proc.devRef .tc main_arg2) = _
  after_results_simp
  exact W2_arg2 m ρ c
theorem W4_arg2 (c : Dev nD) : W4 m ρ c (Proc.devRef .tc main_arg2) = m ((c : Thread nD τ).loc main_arg2) :=
  (W4_of_ne m ρ c main_arg2 (by decide)).trans (W3_arg2 m ρ c)

/-! ## Argument 3 -/

set_option maxHeartbeats 1000000 in
theorem W1_arg3 (c : Dev nD) : W1 m ρ c (Proc.devRef .tc main_arg3) = m ((c : Thread nD τ).loc main_arg3) := by
  show StableHlo.after hostOps0 (W0 m ρ c) (Proc.devRef .tc main_arg3) = _
  after_results_simp
theorem W2_arg3 (c : Dev nD) : W2 m ρ c (Proc.devRef .tc main_arg3) = m ((c : Thread nD τ).loc main_arg3) :=
  (W2_of_ne m ρ c main_arg3 (by decide)).trans (W1_arg3 m ρ c)
set_option maxHeartbeats 1000000 in
theorem W3_arg3 (c : Dev nD) : W3 m ρ c (Proc.devRef .tc main_arg3) = m ((c : Thread nD τ).loc main_arg3) := by
  show StableHlo.after hostOps1 (W2 m ρ c) (Proc.devRef .tc main_arg3) = _
  after_results_simp
  exact W2_arg3 m ρ c
theorem W4_arg3 (c : Dev nD) : W4 m ρ c (Proc.devRef .tc main_arg3) = m ((c : Thread nD τ).loc main_arg3) :=
  (W4_of_ne m ρ c main_arg3 (by decide)).trans (W3_arg3 m ρ c)

/-! ## Argument 4 -/

set_option maxHeartbeats 1000000 in
theorem W1_arg4 (c : Dev nD) : W1 m ρ c (Proc.devRef .tc main_arg4) = m ((c : Thread nD τ).loc main_arg4) := by
  show StableHlo.after hostOps0 (W0 m ρ c) (Proc.devRef .tc main_arg4) = _
  after_results_simp
theorem W2_arg4 (c : Dev nD) : W2 m ρ c (Proc.devRef .tc main_arg4) = m ((c : Thread nD τ).loc main_arg4) :=
  (W2_of_ne m ρ c main_arg4 (by decide)).trans (W1_arg4 m ρ c)
set_option maxHeartbeats 1000000 in
theorem W3_arg4 (c : Dev nD) : W3 m ρ c (Proc.devRef .tc main_arg4) = m ((c : Thread nD τ).loc main_arg4) := by
  show StableHlo.after hostOps1 (W2 m ρ c) (Proc.devRef .tc main_arg4) = _
  after_results_simp
  exact W2_arg4 m ρ c
theorem W4_arg4 (c : Dev nD) : W4 m ρ c (Proc.devRef .tc main_arg4) = m ((c : Thread nD τ).loc main_arg4) :=
  (W4_of_ne m ρ c main_arg4 (by decide)).trans (W3_arg4 m ρ c)

end Cert.KernelIdeal.Kept

end
-- ==== Proof.KernelValue.lean ====
/-
  The idealized kernel's result buffer as a function of the arguments. The generated frame names the buffer contents
  at the seven boundaries of @main. Walking them in order:
    * a stretch of host operations assigns each buffer the operations' composed term of what the stretch found (read
      off the fold, one buffer at a time); the three stretches before a launch re-lay the current table, its messages
      and the running total as 75000 x 128;
    * a launch leaves in its two output arrays the propagation step and the scaled running total of its three input
      arrays (module Mix), and every other buffer as it was;
    * the arguments are as launched at every boundary (module Kept).
  Read back at 150000 x 64, each launch is `Spec.launchE` / `Spec.launchA` of the previous ones, and the last stretch
  scores the last running total: the result buffer ends at `Spec.kernelOut` of the seven arguments.
-/
import proofs.«136068_j13134009991424_2_alg».proof.Proof.Gen.KernelIdeal.Frame
import proofs.«136068_j13134009991424_2_alg».proof.Proof.Spec
import proofs.«136068_j13134009991424_2_alg».proof.Proof.Mix
import proofs.«136068_j13134009991424_2_alg».proof.Proof.Kept
import Idealize.ShloMosaic.Lib.StableHlo.Run

set_option maxRecDepth 16384

noncomputable section

namespace Cert.KernelIdeal.Reading

open Cert.KernelIdeal Cert.KernelIdeal.Gen Idealize.ShloMosaic Idealize.ShloMosaic.TcCoe Idealize.SL.Sem Idealize.ShloMosaic.StableHlo
open Cert.KernelIdeal.Spec

variable {F : FTy → Type} [FloatOps F]
variable (m : (ℓ : Loc nD τ sig) → Buf (Elt F) ℓ) (ρ : Dev nD → PrngReg)

/-! ## The arguments as launched, at the types the specification takes -/

abbrev us (c : Dev nD) : IVec S4096 32 := m ((c : Thread nD τ).loc main_arg0)
abbrev its (c : Dev nD) : IVec S4096 32 := m ((c : Thread nD τ).loc main_arg1)
abbrev er (c : Dev nD) : IVec S1200000 32 := m ((c : Thread nD τ).loc main_arg2)
abbrev ec (c : Dev nD) : IVec S1200000 32 := m ((c : Thread nD τ).loc main_arg3)
abbrev ev (c : Dev nD) : FVec F S1200000 .f32 := m ((c : Thread nD τ).loc main_arg4)
abbrev u (c : Dev nD) : FVec F S100000x64 .f32 := m ((c : Thread nD τ).loc main_arg5)
abbrev it (c : Dev nD) : FVec F S50000x64 .f32 := m ((c : Thread nD τ).loc main_arg6)

/-! ## Before the first launch: the table, its messages, and the table again as the first running total -/

set_option maxHeartbeats 2000000 in
theorem V1_x (c : Dev nD) : V1 m ρ c main_v14 = wide (table (u m c) (it m c)) := by
  show StableHlo.after hostOps0 (W0 m ρ c) (Proc.devRef .tc main_v14) = _
  after_results_simp <;> rfl

set_option maxHeartbeats 2000000 in
theorem V1_s (c : Dev nD) : V1 m ρ c main_v15 = wide (spread (er m c) (ec m c) (ev m c) (table (u m c) (it m c))) := by
  show StableHlo.after hostOps0 (W0 m ρ c) (Proc.devRef .tc main_v15) = _
  after_results_simp <;> rfl

set_option maxHeartbeats 2000000 in
theorem V1_a (c : Dev nD) : V1 m ρ c main_v16 = wide (table (u m c) (it m c)) := by
  show StableHlo.after hostOps0 (W0 m ρ c) (Proc.devRef .tc main_v16) = _
  after_results_simp <;> rfl

/-! ## The first launch -/

theorem V2_e (c : Dev nD) : V2 m ρ c main_v17_0 = step (V1 m ρ c main_v14) (V1 m ρ c main_v15) :=
  (W2_arr m ρ c 3).trans (Mix.next0 (V1 m ρ) c)
theorem V2_a (c : Dev nD) : V2 m ρ c main_v17_1 = total 0x3F800000#32 (V1 m ρ c main_v14) (V1 m ρ c main_v15) (V1 m ρ c main_v16) :=
  (W2_arr m ρ c 4).trans (Mix.acc0 (V1 m ρ) c)

/-- The table after one layer. -/
theorem tall1E (c : Dev nD) : tall (V2 m ρ c main_v17_0) = launchE (er m c) (ec m c) (ev m c) (table (u m c) (it m c)) := by
  rw [V2_e, V1_x, V1_s]; rfl
/-- The running total after one layer. -/
theorem tall1A (c : Dev nD) : tall (V2 m ρ c main_v17_1) = launchA 0x3F800000#32 (er m c) (ec m c) (ev m c) (table (u m c) (it m c)) (table (u m c) (it m c)) := by
  rw [V2_a, V1_x, V1_s, V1_a]; rfl

/-! ## Before the second launch -/

set_option maxHeartbeats 2000000 in
theorem V3_x (c : Dev nD) : V3 m ρ c main_v33 = wide (tall (V2 m ρ c main_v17_0)) := by
  show StableHlo.after hostOps1 (W2 m ρ c) (Proc.devRef .tc main_v33) = _
  after_results_simp <;> rfl

set_option maxHeartbeats 2000000 in
theorem V3_s (c : Dev nD) : V3 m ρ c main_v34 = wide (spread (er m c) (ec m c) (ev m c) (tall (V2 m ρ c main_v17_0))) := by
  show StableHlo.after hostOps1 (W2 m ρ c) (Proc.devRef .tc main_v34) = _
  after_results_simp
  rw [Kept.W2_arg2 m ρ c, Kept.W2_arg3 m ρ c, Kept.W2_arg4 m ρ c]
  rfl

set_option maxHeartbeats 2000000 in
theorem V3_a (c : Dev nD) : V3 m ρ c main_v35 = wide (tall (V2 m ρ c main_v17_1)) := by
  show StableHlo.after hostOps1 (W2 m ρ c) (Proc.devRef .tc main_v35) = _
  after_results_simp <;> rfl

/-! ## The second launch -/

theorem V4_e (c : Dev nD) : V4 m ρ c main_v36_0 = step (V3 m ρ c main_v33) (V3 m ρ c main_v34) :=
  (W4_arr m ρ c 3).trans (Mix.next1 (V3 m ρ) c)
theorem V4_a (c : Dev nD) : V4 m ρ c main_v36_1 = total 0x3F800000#32 (V3 m ρ c main_v33) (V3 m ρ c main_v34) (V3 m ρ c main_v35) :=
  (W4_arr m ρ c 4).trans (Mix.acc1 (V3 m ρ) c)

/-- The table after two layers. -/
theorem tall2E (c : Dev nD) : tall (V4 m ρ c main_v36_0)
    = launchE (er m c) (ec m c) (ev m c) (launchE (er m c) (ec m c) (ev m c) (table (u m c) (it m c))) := by
  rw [V4_e, V3_x, V3_s, tall1E]; rfl
/-- The running total after two layers. -/
theorem tall2A (c : Dev nD) : tall (V4 m ρ c main_v36_1)
    = launchA 0x3F800000#32 (er m c) (ec m c) (ev m c) (launchE (er m c) (ec m c) (ev m c) (table (u m c) (it m c)))
        (launchA 0x3F800000#32 (er m c) (ec m c) (ev m c) (table (u m c) (it m c)) (table (u m c) (it m c))) := by
  rw [V4_a, V3_x, V3_s, V3_a, tall1E, tall1A]; rfl

/-! ## Before the third launch -/

set_option maxHeartbeats 2000000 in
theorem V5_x (c : Dev nD) : V5 m ρ c main_v52 = wide (tall (V4 m ρ c main_v36_0)) := by
  show StableHlo.after hostOps2 (W4 m ρ c) (Proc.devRef .tc main_v52) = _
  after_results_simp <;> rfl

set_option maxHeartbeats 2000000 in
theorem V5_s (c : Dev nD) : V5 m ρ c main_v53 = wide (spread (er m c) (ec m c) (ev m c) (tall (V4 m ρ c main_v36_0))) := by
  show StableHlo.after hostOps2 (W4 m ρ c) (Proc.devRef .tc main_v53) = _
  after_results_simp
  rw [Kept.W4_arg2 m ρ c, Kept.W4_arg3 m ρ c, Kept.W4_arg4 m ρ c]
  rfl

set_option maxHeartbeats 2000000 in
theorem V5_a (c : Dev nD) : V5 m ρ c main_v54 = wide (tall (V4 m ρ c main_v36_1)) := by
  show StableHlo.after hostOps2 (W4 m ρ c) (Proc.devRef .tc main_v54) = _
  after_results_simp <;> rfl

/-! ## The third launch -/

theorem V6_a (c : Dev nD) : V6 m ρ c main_v55_1 = total 0x3E800000#32 (V5 m ρ c main_v52) (V5 m ρ c main_v53) (V5 m ρ c main_v54) :=
  (W6_arr m ρ c 4).trans (Mix.acc2 (V5 m ρ) c)

/-- The running total after three layers, already scaled by 1/4. -/
theorem tall3A (c : Dev nD) : tall (V6 m ρ c main_v55_1)
    = launchA 0x3E800000#32 (er m c) (ec m c) (ev m c)
        (launchE (er m c) (ec m c) (ev m c) (launchE (er m c) (ec m c) (ev m c) (table (u m c) (it m c))))
        (launchA 0x3F800000#32 (er m c) (ec m c) (ev m c) (launchE (er m c) (ec m c) (ev m c) (table (u m c) (it m c)))
          (launchA 0x3F800000#32 (er m c) (ec m c) (ev m c) (table (u m c) (it m c)) (table (u m c) (it m c)))) := by
  rw [V6_a, V5_x, V5_s, V5_a, tall2E, tall2A]; rfl

/-! ## The last stretch: the scores -/

set_option maxHeartbeats 2000000 in
/-- The result buffer at the last boundary is the specification's function of the seven arguments. -/
theorem result (c : Dev nD) :
    W7 m ρ c (Proc.devRef .tc main_v75) = kernelOut (us m c) (its m c) (er m c) (ec m c) (ev m c) (u m c) (it m c) := by
  show StableHlo.after hostOps3 (W6 m ρ c) (Proc.devRef .tc main_v75) = _
  after_results_simp
  rw [Kept.W6_arg0 m ρ c, Kept.W6_arg1 m ρ c]
  show score (us m c) (its m c) (tall (V6 m ρ c main_v55_1)) = _
  rw [tall3A]; rfl

end Cert.KernelIdeal.Reading

end
-- ==== Proof.RefValue.lean ====
/-
  The reference's result as the specification's function. The generated run states the reference's result buffer at
  the composed term of its 99 host operations over the launch contents of the arguments. That term is, operation for
  operation, `Spec.referenceOut`: the table, three layers each spelt 0.2 * E + 0.8 * G E with the shared messages G,
  the sum of the four tables divided by 4, and the shared scores. The two programs state their side conditions and
  their gather and scatter dimension records separately; the records hold the same numbers, so the two spellings are
  one term.
-/
import proofs.«136068_j13134009991424_2_alg».proof.Proof.Gen.ReferenceIdeal.Run
import proofs.«136068_j13134009991424_2_alg».proof.Proof.Spec

set_option maxRecDepth 16384

noncomputable section

namespace Cert.ReferenceIdeal.RefValue

open Idealize.ShloMosaic Idealize.ShloMosaic.TcCoe Idealize.SL.Sem

variable {F : FTy → Type} [FloatOps F]

set_option maxHeartbeats 1000000 in
/-- The run's composed term is the specification's reference function of the seven arguments. -/
theorem result_eq (m : (ℓ : Loc Cert.ReferenceIdeal.nD Cert.ReferenceIdeal.τ Cert.ReferenceIdeal.sig) → Buf (Elt F) ℓ) (c : Dev Cert.ReferenceIdeal.nD) :
    Cert.ReferenceIdeal.Value.res_main_v77 m c
      = Cert.KernelIdeal.Spec.referenceOut (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) := by
  unfold Cert.ReferenceIdeal.Value.res_main_v77
  rfl

end Cert.ReferenceIdeal.RefValue

end
-- ==== Proof.lean ====
/-
  The certificate of the layered graph propagation: a Pallas blend kernel, launched once per layer on the embedding
  table re-laid lane-dense, against the plain array program.

  Both programs start from the table T of user rows over item rows and apply three layers E' = 0.2 * E + 0.8 * G E, G the
  edge-list gather / scale / scatter-add that both programs run as the same host operations. The reference adds up
  T + E1 + E2 + E3, divides by 4 and scores users against items. The kernel's program re-lays E, G E and its running
  total as 75000 x 128 before each launch, lets the launch compute the step and (total + step) * k block by block with
  k = 1, 1, 1/4, re-lays the outputs back, and scores the last total. At the exact instance the re-laying cancels around
  pointwise arithmetic, multiplying by 1 does nothing and multiplying by 1/4 is dividing by 4, on every extended real:
  the two results are equal for all inputs, and the precondition is never opened.

  Modules: Spec (the mathematics as functions, and the cancelling of the re-laying), Consts (the words 1, 1/4, 4), Same
  (the two functions are equal), Mix (what a launch leaves in its output arrays), Kept (the arguments at each boundary),
  KernelRun (the kernel's run read at its result buffer), KernelValue (that buffer as the specification's function),
  RefValue (the reference's generated run as the specification's function). The three frames are the generated ones; the
  idealization rewrote nothing, so `preserves` is `True`.
-/
import proofs.«136068_j13134009991424_2_alg».proof.Defs
import proofs.«136068_j13134009991424_2_alg».proof.Proof.Gen.Kernel
import proofs.«136068_j13134009991424_2_alg».proof.Proof.Gen.Kernel.Frame
import proofs.«136068_j13134009991424_2_alg».proof.Proof.Gen.KernelIdeal
import proofs.«136068_j13134009991424_2_alg».proof.Proof.Gen.KernelIdeal.Frame
import proofs.«136068_j13134009991424_2_alg».proof.Proof.Gen.ReferenceIdeal
import proofs.«136068_j13134009991424_2_alg».proof.Proof.Gen.ReferenceIdeal.Run
import proofs.«136068_j13134009991424_2_alg».proof.Proof.Gen.Pre_finite_inputs
import proofs.«136068_j13134009991424_2_alg».proof.Proof.Same
import proofs.«136068_j13134009991424_2_alg».proof.Proof.KernelRun
import proofs.«136068_j13134009991424_2_alg».proof.Proof.KernelValue
import proofs.«136068_j13134009991424_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and keeps its arguments: the generated frame, at the word-level instance. -/
theorem frame_kernel : Cert.frame_Kernel := fun m ρ _ => Cert.Kernel.Gen.frame m ρ

/-- So does its idealization: the generated frame, at the exact instance. -/
theorem frame_kernelIdeal : Cert.frame_KernelIdeal := fun m ρ _ => Cert.KernelIdeal.Gen.frame m ρ

/-- The reference is host operations only: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same scores: the kernel's result buffer is
    `Spec.kernelOut` of its arguments, the reference's is `Spec.referenceOut` of the same arrays, and the two functions
    are equal. -/
theorem algebraic : Cert.algebraic_KernelIdeal_ReferenceIdeal := by
  intro m ρ m' ρ' _ hagree
  refine ⟨fun c => Cert.KernelIdeal.Spec.kernelOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Reading.result m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := hagree c
    rw [Cert.ReferenceIdeal.RefValue.result_eq, h0, h1, h2, h3, h4, h5, h6]
    exact (Cert.KernelIdeal.Spec.kernelOut_eq_referenceOut _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
